-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v22_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v22_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S10000x512 : Shape := ⟨2, ![10000, 512]⟩
abbrev S300000 : Shape := ⟨1, ![300000]⟩
abbrev S512x512 : Shape := ⟨2, ![512, 512]⟩
abbrev S512 : Shape := ⟨1, ![512]⟩
abbrev S50000x1 : Shape := ⟨2, ![50000, 1]⟩
abbrev S10000x1 : Shape := ⟨2, ![10000, 1]⟩
abbrev S300000x1 : Shape := ⟨2, ![300000, 1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S50000x1 : S_.BroadcastsInDim S50000x1 (![] : Fin 0 → Fin S50000x1.rank)
  reducesTo_S50000x1_S_d0_1 : S50000x1.ReducesTo [0, 1] S_
  bcast_S_S10000x1 : S_.BroadcastsInDim S10000x1 (![] : Fin 0 → Fin S10000x1.rank)
  reducesTo_S10000x1_S_d0_1 : S10000x1.ReducesTo [0, 1] S_
  bcast_S_S300000x1 : S_.BroadcastsInDim S300000x1 (![] : Fin 0 → Fin S300000x1.rank)
  reducesTo_S300000x1_S_d0_1 : S300000x1.ReducesTo [0, 1] S_

variable [Facts]

def fn_part3 {F : FTy → Type} [FloatOps F] (main_arg14 : FVec F S10000x1 .f32) (main_v48 : IVec S_ 1) (main_v49 : FVec F S50000x1 .f32) (main_v50 : FVec F S50000x1 .f32) : IVec S_ 1 :=
  let main_v51 : IVec S50000x1 1 := cmpf .olt main_v49 main_v50
  let main_c_19 : IVec S_ 1 := constantI S_ 1 1#1
  let main_v52 : IVec S_ 1 := (fun x v => Host.reduce IntOp.andi x v reducesTo_S50000x1_S_d0_1 h_S_) main_v51 main_c_19
  let main_v53 : IVec S_ 1 := andi main_v48 main_v52
  let main_v54 : FVec F S10000x1 .f32 := Host.absf main_arg14
  let main_cst_20 : FVec F S_ .f32 := constant S_ .f32 0x7F800000#32
  let main_v55 : FVec F S10000x1 .f32 := broadcastInDim S10000x1 ![] bcast_S_S10000x1 main_cst_20
  let main_v56 : IVec S10000x1 1 := cmpf .olt main_v54 main_v55
  let main_c_21 : IVec S_ 1 := constantI S_ 1 1#1
  let main_v57 : IVec S_ 1 := (fun x v => Host.reduce IntOp.andi x v reducesTo_S10000x1_S_d0_1 h_S_) main_v56 main_c_21
  let main_v58 : IVec S_ 1 := andi main_v53 main_v57
  main_v58

def fn_part2 {F : FTy → Type} [FloatOps F] (main_arg10 : FVec F S10000x1 .f32) (main_arg11 : FVec F S300000x1 .f32) (main_arg12 : FVec F S300000x1 .f32) (main_arg13 : FVec F S50000x1 .f32) (main_arg14 : FVec F S10000x1 .f32) (main_v33 : IVec S_ 1) : IVec S_ 1 :=
  let main_v34 : FVec F S10000x1 .f32 := Host.absf main_arg10
  let main_cst_12 : FVec F S_ .f32 := constant S_ .f32 0x7F800000#32
  let main_v35 : FVec F S10000x1 .f32 := broadcastInDim S10000x1 ![] bcast_S_S10000x1 main_cst_12
  let main_v36 : IVec S10000x1 1 := cmpf .olt main_v34 main_v35
  let main_c_13 : IVec S_ 1 := constantI S_ 1 1#1
  let main_v37 : IVec S_ 1 := (fun x v => Host.reduce IntOp.andi x v reducesTo_S10000x1_S_d0_1 h_S_) main_v36 main_c_13
  let main_v38 : IVec S_ 1 := andi main_v33 main_v37
  let main_v39 : FVec F S300000x1 .f32 := Host.absf main_arg11
  let main_cst_14 : FVec F S_ .f32 := constant S_ .f32 0x7F800000#32
  let main_v40 : FVec F S300000x1 .f32 := broadcastInDim S300000x1 ![] bcast_S_S300000x1 main_cst_14
  let main_v41 : IVec S300000x1 1 := cmpf .olt main_v39 main_v40
  let main_c_15 : IVec S_ 1 := constantI S_ 1 1#1
  let main_v42 : IVec S_ 1 := (fun x v => Host.reduce IntOp.andi x v reducesTo_S300000x1_S_d0_1 h_S_) main_v41 main_c_15
  let main_v43 : IVec S_ 1 := andi main_v38 main_v42
  let main_v44 : FVec F S300000x1 .f32 := Host.absf main_arg12
  let main_cst_16 : FVec F S_ .f32 := constant S_ .f32 0x7F800000#32
  let main_v45 : FVec F S300000x1 .f32 := broadcastInDim S300000x1 ![] bcast_S_S300000x1 main_cst_16
  let main_v46 : IVec S300000x1 1 := cmpf .olt main_v44 main_v45
  let main_c_17 : IVec S_ 1 := constantI S_ 1 1#1
  let main_v47 : IVec S_ 1 := (fun x v => Host.reduce IntOp.andi x v reducesTo_S300000x1_S_d0_1 h_S_) main_v46 main_c_17
  let main_v48 : IVec S_ 1 := andi main_v43 main_v47
  let main_v49 : FVec F S50000x1 .f32 := Host.absf main_arg13
  let main_cst_18 : FVec F S_ .f32 := constant S_ .f32 0x7F800000#32
  let main_v50 : FVec F S50000x1 .f32 := broadcastInDim S50000x1 ![] bcast_S_S50000x1 main_cst_18
  fn_part3 (F := F) main_arg14 main_v48 main_v49 main_v50

def fn_part1 {F : FTy → Type} [FloatOps F] (main_arg7 : FVec F S512 .f32) (main_arg8 : FVec F S512 .f32) (main_arg9 : FVec F S50000x1 .f32) (main_arg10 : FVec F S10000x1 .f32) (main_arg11 : FVec F S300000x1 .f32) (main_arg12 : FVec F S300000x1 .f32) (main_arg13 : FVec F S50000x1 .f32) (main_arg14 : FVec F S10000x1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg7
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg8
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S50000x1 .f32 := Host.absf main_arg9
  let main_cst_10 : FVec F S_ .f32 := constant S_ .f32 0x7F800000#32
  let main_v30 : FVec F S50000x1 .f32 := broadcastInDim S50000x1 ![] bcast_S_S50000x1 main_cst_10
  let main_v31 : IVec S50000x1 1 := cmpf .olt main_v29 main_v30
  let main_c_11 : IVec S_ 1 := constantI S_ 1 1#1
  let main_v32 : IVec S_ 1 := (fun x v => Host.reduce IntOp.andi x v reducesTo_S50000x1_S_d0_1 h_S_) main_v31 main_c_11
  let main_v33 : IVec S_ 1 := andi main_v28 main_v32
  fn_part2 (F := F) main_arg10 main_arg11 main_arg12 main_arg13 main_arg14 main_v33

def fn {F : FTy → Type} [FloatOps F] (main_arg0 : FVec F S50000x512 .f32) (main_arg1 : FVec F S10000x512 .f32) (main_arg2 : IVec S300000 32) (main_arg3 : IVec S300000 32) (main_arg4 : IVec S300000 32) (main_arg5 : FVec F S512x512 .f32) (main_arg6 : FVec F S512x512 .f32) (main_arg7 : FVec F S512 .f32) (main_arg8 : FVec F S512 .f32) (main_arg9 : FVec F S50000x1 .f32) (main_arg10 : FVec F S10000x1 .f32) (main_arg11 : FVec F S300000x1 .f32) (main_arg12 : FVec F S300000x1 .f32) (main_arg13 : FVec F S50000x1 .f32) (main_arg14 : FVec F S10000x1 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S10000x512 .f32 := Host.absf main_arg1
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  let main_v9 : FVec F S512x512 .f32 := Host.absf main_arg5
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg6
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg7 main_arg8 main_arg9 main_arg10 main_arg11 main_arg12 main_arg13 main_arg14 main_v13 main_v16
-- ==== Kernel.lean ====
abbrev S50000x512 : Shape := ⟨2, ![50000, 512]⟩
abbrev S10000x512 : Shape := ⟨2, ![10000, 512]⟩
abbrev S300000 : Shape := ⟨1, ![300000]⟩
abbrev S512x512 : Shape := ⟨2, ![512, 512]⟩
abbrev S512 : Shape := ⟨1, ![512]⟩
abbrev S50000x1 : Shape := ⟨2, ![50000, 1]⟩
abbrev S10000x1 : Shape := ⟨2, ![10000, 1]⟩
abbrev S300000x1 : Shape := ⟨2, ![300000, 1]⟩
abbrev S1x512 : Shape := ⟨2, ![1, 512]⟩
abbrev S2000x512 : Shape := ⟨2, ![2000, 512]⟩
abbrev S2000x1 : Shape := ⟨2, ![2000, 1]⟩
abbrev S_ : Shape := ⟨0, ![]⟩
abbrev S300000x512 : Shape := ⟨2, ![300000, 512]⟩
abbrev S1000x512 : Shape := ⟨2, ![1000, 512]⟩
abbrev S1000x1 : Shape := ⟨2, ![1000, 1]⟩

abbrev nBuf : Space → Nat
  | .hbm => 73
  | .vmem => 22
  | .smem => 0
  | _ => 0

abbrev bufTy : (tb : Table) → Fin (tcTables nBuf tb) → BufTy
  | .hbm, ⟨0, _⟩ => ⟨S50000x512, .f32⟩
  | .hbm, ⟨1, _⟩ => ⟨S10000x512, .f32⟩
  | .hbm, ⟨2, _⟩ => ⟨S300000, .i32⟩
  | .hbm, ⟨3, _⟩ => ⟨S300000, .i32⟩
  | .hbm, ⟨4, _⟩ => ⟨S300000, .i32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S50000x1, .f32⟩
  | .hbm, ⟨10, _⟩ => ⟨S10000x1, .f32⟩
  | .hbm, ⟨11, _⟩ => ⟨S300000x1, .f32⟩
  | .hbm, ⟨12, _⟩ => ⟨S300000x1, .f32⟩
  | .hbm, ⟨13, _⟩ => ⟨S50000x1, .f32⟩
  | .hbm, ⟨14, _⟩ => ⟨S10000x1, .f32⟩
  | .hbm, ⟨15, _⟩ => ⟨S1x512, .f32⟩
  | .hbm, ⟨16, _⟩ => ⟨S50000x512, .f32⟩
  | .hbm, ⟨17, _⟩ => ⟨S_, .i32⟩
  | .hbm, ⟨18, _⟩ => ⟨S300000, .i32⟩
  | .hbm, ⟨19, _⟩ => ⟨S300000, .i1⟩
  | .hbm, ⟨20, _⟩ => ⟨S_, .i32⟩
  | .hbm, ⟨21, _⟩ => ⟨S300000, .i32⟩
  | .hbm, ⟨22, _⟩ => ⟨S300000, .i32⟩
  | .hbm, ⟨23, _⟩ => ⟨S300000, .i32⟩
  | .hbm, ⟨24, _⟩ => ⟨S300000x1, .i32⟩
  | .hbm, ⟨25, _⟩ => ⟨S300000x512, .f32⟩
  | .hbm, ⟨26, _⟩ => ⟨S_, .i32⟩
  | .hbm, ⟨27, _⟩ => ⟨S300000, .i32⟩
  | .hbm, ⟨28, _⟩ => ⟨S300000, .i1⟩
  | .hbm, ⟨29, _⟩ => ⟨S_, .i32⟩
  | .hbm, ⟨30, _⟩ => ⟨S300000, .i32⟩
  | .hbm, ⟨31, _⟩ => ⟨S300000, .i32⟩
  | .hbm, ⟨32, _⟩ => ⟨S300000, .i32⟩
  | .hbm, ⟨33, _⟩ => ⟨S300000x1, .i32⟩
  | .hbm, ⟨34, _⟩ => ⟨S300000x1, .f32⟩
  | .hbm, ⟨35, _⟩ => ⟨S300000x512, .f32⟩
  | .hbm, ⟨36, _⟩ => ⟨S300000x512, .f32⟩
  | .hbm, ⟨37, _⟩ => ⟨S_, .f32⟩
  | .hbm, ⟨38, _⟩ => ⟨S10000x512, .f32⟩
  | .hbm, ⟨39, _⟩ => ⟨S300000x1, .i32⟩
  | .hbm, ⟨40, _⟩ => ⟨S10000x512, .f32⟩
  | .hbm, ⟨41, _⟩ => ⟨S1x512, .f32⟩
  | .hbm, ⟨42, _⟩ => ⟨S10000x512, .f32⟩
  | .hbm, ⟨43, _⟩ => ⟨S10000x512, .f32⟩
  | .hbm, ⟨44, _⟩ => ⟨S_, .i32⟩
  | .hbm, ⟨45, _⟩ => ⟨S300000, .i32⟩
  | .hbm, ⟨46, _⟩ => ⟨S300000, .i1⟩
  | .hbm, ⟨47, _⟩ => ⟨S_, .i32⟩
  | .hbm, ⟨48, _⟩ => ⟨S300000, .i32⟩
  | .hbm, ⟨49, _⟩ => ⟨S300000, .i32⟩
  | .hbm, ⟨50, _⟩ => ⟨S300000, .i32⟩
  | .hbm, ⟨51, _⟩ => ⟨S300000x1, .i32⟩
  | .hbm, ⟨52, _⟩ => ⟨S300000x512, .f32⟩
  | .hbm, ⟨53, _⟩ => ⟨S_, .i32⟩
  | .hbm, ⟨54, _⟩ => ⟨S300000, .i32⟩
  | .hbm, ⟨55, _⟩ => ⟨S300000, .i1⟩
  | .hbm, ⟨56, _⟩ => ⟨S_, .i32⟩
  | .hbm, ⟨57, _⟩ => ⟨S300000, .i32⟩
  | .hbm, ⟨58, _⟩ => ⟨S300000, .i32⟩
  | .hbm, ⟨59, _⟩ => ⟨S300000, .i32⟩
  | .hbm, ⟨60, _⟩ => ⟨S300000x1, .i32⟩
  | .hbm, ⟨61, _⟩ => ⟨S300000x1, .f32⟩
  | .hbm, ⟨62, _⟩ => ⟨S300000x512, .f32⟩
  | .hbm, ⟨63, _⟩ => ⟨S300000x512, .f32⟩
  | .hbm, ⟨64, _⟩ => ⟨S_, .f32⟩
  | .hbm, ⟨65, _⟩ => ⟨S50000x512, .f32⟩
  | .hbm, ⟨66, _⟩ => ⟨S300000x1, .i32⟩
  | .hbm, ⟨67, _⟩ => ⟨S50000x512, .f32⟩
  | .hbm, ⟨68, _⟩ => ⟨S50000x512, .f32⟩
  | .hbm, ⟨69, _⟩ => ⟨S50000x512, .f32⟩
  | .hbm, ⟨70, _⟩ => ⟨S50000x512, .f32⟩
  | .hbm, ⟨71, _⟩ => ⟨S50000x512, .f32⟩
  | .hbm, ⟨72, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S1x512, .f32⟩
  | .local _ .vmem, ⟨4, _⟩ => ⟨S2000x1, .f32⟩
  | .local _ .vmem, ⟨5, _⟩ => ⟨S2000x1, .f32⟩
  | .local _ .vmem, ⟨6, _⟩ => ⟨S2000x512, .f32⟩
  | .local _ .vmem, ⟨7, _⟩ => ⟨S2000x512, .f32⟩
  | .local _ .vmem, ⟨8, _⟩ => ⟨S1000x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S1000x1, .f32⟩
  | .local _ .vmem, ⟨13, _⟩ => ⟨S1000x1, .f32⟩
  | .local _ .vmem, ⟨14, _⟩ => ⟨S512x512, .f32⟩
  | .local _ .vmem, ⟨15, _⟩ => ⟨S1x512, .f32⟩
  | .local _ .vmem, ⟨16, _⟩ => ⟨S1000x1, .f32⟩
  | .local _ .vmem, ⟨17, _⟩ => ⟨S1000x1, .f32⟩
  | .local _ .vmem, ⟨18, _⟩ => ⟨S1000x512, .f32⟩
  | .local _ .vmem, ⟨19, _⟩ => ⟨S1000x512, .f32⟩
  | .local _ .vmem, ⟨20, _⟩ => ⟨S1000x512, .f32⟩
  | .local _ .vmem, ⟨21, _⟩ => ⟨S1000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_1 : Ref sig .tc := ⟨.hbm, 26, rfl⟩
abbrev main_v9 : Ref sig .tc := ⟨.hbm, 27, rfl⟩
abbrev main_v10 : Ref sig .tc := ⟨.hbm, 28, rfl⟩
abbrev main_c_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22_0 : Ref sig .tc := ⟨.hbm, 42, rfl⟩
abbrev main_v22_1 : Ref sig .tc := ⟨.hbm, 43, rfl⟩
abbrev main_c_3 : Ref sig .tc := ⟨.hbm, 44, rfl⟩
abbrev main_v23 : Ref sig .tc := ⟨.hbm, 45, rfl⟩
abbrev main_v24 : Ref sig .tc := ⟨.hbm, 46, rfl⟩
abbrev main_c_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1000x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1000x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x1_S2000x1_0_0 : ∀ a, (![0, 0] : Fin 2 → Nat) a + S2000x1.size a ≤ S2000x1.size a
  h_S2000x1 : 0 < S2000x1.numel
  broadcasts_S2000x1_S2000x512 : S2000x1.Broadcasts S2000x512
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x512_0_1 : S300000x1.BroadcastsInDim S300000x512 (![0, 1] : Fin 2 → Fin S300000x512.rank)
  bcast_S_S10000x512 : S_.BroadcastsInDim S10000x512 (![] : Fin 0 → Fin S10000x512.rank)
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1000x1_S1000x1_0_0 : ∀ a, (![0, 0] : Fin 2 → Nat) a + S1000x1.size a ≤ S1000x1.size a
  h_S1000x1 : 0 < S1000x1.numel
  broadcasts_S1000x1_S1000x512 : S1000x1.Broadcasts S1000x512
  broadcasts_S1x512_S1000x512 : S1x512.Broadcasts S1000x512
  bcast_S_S50000x512 : S_.BroadcastsInDim S50000x512 (![] : Fin 0 → Fin S50000x512.rank)
  bcast_S50000x1_S50000x512_0_1 : S50000x1.BroadcastsInDim S50000x512 (![0, 1] : Fin 2 → Fin S50000x512.rank)
  dot_S2000x512_S512x512_S2000x512_1_0_0_1_n_n_wf : DotDims.WF S2000x512 S512x512 S2000x512 [1] [0] [0] [1] [] []
  gather_S50000x512_S300000x1_S300000x512_1_0_n_n_0_1_1512_wf : GatherDims.WF S50000x512 S300000x1 S300000x512 [1] [0] [] [0] [] 1 ![1, 512]
  gather_S300000x1_S300000x1_S300000x1_1_0_n_n_0_1_11_wf : GatherDims.WF S300000x1 S300000x1 S300000x1 [1] [0] [] [0] [] 1 ![1, 1]
  scatter_S10000x512_S300000x1_S300000x512_1_0_0_1_wf : ScatterDims.WF S10000x512 S300000x1 S300000x512 [1] [0] [0] 1
  dot_S1000x512_S512x512_S1000x512_1_0_0_1_n_n_wf : DotDims.WF S1000x512 S512x512 S1000x512 [1] [0] [0] [1] [] []
  gather_S10000x512_S300000x1_S300000x512_1_0_n_n_0_1_1512_wf : GatherDims.WF S10000x512 S300000x1 S300000x512 [1] [0] [] [0] [] 1 ![1, 512]
  scatter_S50000x512_S300000x1_S300000x512_1_0_0_1_wf : ScatterDims.WF S50000x512 S300000x1 S300000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S50000x512.size a
  hwx0_4 : ∀ i : grid0.Coords, EltTy.bits .f32 = 32 ∨ (Rect.block (s := S50000x512) S2000x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S10000x512.size a
  hwx1_0 : ∀ i : grid1.Coords, EltTy.bits .f32 = 32 ∨ (Rect.block (s := S10000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S10000x512.size a
  hwx1_1 : ∀ i : grid1.Coords, EltTy.bits .f32 = 32 ∨ (Rect.block (s := S10000x512) S1000x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S10000x1.size a
  hwx1_2 : ∀ i : grid1.Coords, EltTy.bits .f32 = 32 ∨ (Rect.block (s := S10000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x1.size a ≤ S10000x1.size a
  hwx1_5 : ∀ i : grid1.Coords, EltTy.bits .f32 = 32 ∨ (Rect.block (s := S10000x1) S1000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x512.size a ≤ S10000x512.size a
  hwx1_6 : ∀ i : grid1.Coords, EltTy.bits .f32 = 32 ∨ (Rect.block (s := S10000x512) S1000x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x512.size a ≤ S10000x512.size a
  hwx1_7 : ∀ i : grid1.Coords, EltTy.bits .f32 = 32 ∨ (Rect.block (s := S10000x512) S1000x512.size (cc1_transform_7 i) (hinb1_7 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S50000x512_S300000x1_S300000x512_1_0_n_n_0_1_1512 : GatherDims S50000x512 S300000x1 S300000x512 where
  offsetDims := [1]
  collapsedSliceDims := [0]
  operandBatchingDims := []
  startIndicesBatchingDims := []
  startIndexMap := [0]
  indexVectorDim := 1
  sliceSizes := ![1, 512]
  wf := gather_S50000x512_S300000x1_S300000x512_1_0_n_n_0_1_1512_wf
def gather_S300000x1_S300000x1_S300000x1_1_0_n_n_0_1_11 : GatherDims S300000x1 S300000x1 S300000x1 where
  offsetDims := [1]
  collapsedSliceDims := [0]
  operandBatchingDims := []
  startIndicesBatchingDims := []
  startIndexMap := [0]
  indexVectorDim := 1
  sliceSizes := ![1, 1]
  wf := gather_S300000x1_S300000x1_S300000x1_1_0_n_n_0_1_11_wf
def scatter_S10000x512_S300000x1_S300000x512_1_0_0_1 : ScatterDims S10000x512 S300000x1 S300000x512 where
  updateWindowDims := [1]
  insertedWindowDims := [0]
  scatterDimsToOperandDims := [0]
  indexVectorDim := 1
  wf := scatter_S10000x512_S300000x1_S300000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def gather_S10000x512_S300000x1_S300000x512_1_0_n_n_0_1_1512 : GatherDims S10000x512 S300000x1 S300000x512 where
  offsetDims := [1]
  collapsedSliceDims := [0]
  operandBatchingDims := []
  startIndicesBatchingDims := []
  startIndexMap := [0]
  indexVectorDim := 1
  sliceSizes := ![1, 512]
  wf := gather_S10000x512_S300000x1_S300000x512_1_0_n_n_0_1_1512_wf
def scatter_S50000x512_S300000x1_S300000x512_1_0_0_1 : ScatterDims S50000x512 S300000x1 S300000x512 where
  updateWindowDims := [1]
  insertedWindowDims := [0]
  scatterDimsToOperandDims := [0]
  indexVectorDim := 1
  wf := scatter_S50000x512_S300000x1_S300000x512_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg14) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S1000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v22_0) S1000x512.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v22_1) S1000x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x512 : Shape := ⟨2, ![50000, 512]⟩
abbrev S10000x512 : Shape := ⟨2, ![10000, 512]⟩
abbrev S300000 : Shape := ⟨1, ![300000]⟩
abbrev S512x512 : Shape := ⟨2, ![512, 512]⟩
abbrev S512 : Shape := ⟨1, ![512]⟩
abbrev S50000x1 : Shape := ⟨2, ![50000, 1]⟩
abbrev S10000x1 : Shape := ⟨2, ![10000, 1]⟩
abbrev S300000x1 : Shape := ⟨2, ![300000, 1]⟩
abbrev S1x512 : Shape := ⟨2, ![1, 512]⟩
abbrev S_ : Shape := ⟨0, ![]⟩
abbrev S300000x512 : Shape := ⟨2, ![300000, 512]⟩

abbrev nBuf : Space → Nat
  | .hbm => 89
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S10000x512, .f32⟩
  | .hbm, ⟨2, _⟩ => ⟨S300000, .i32⟩
  | .hbm, ⟨3, _⟩ => ⟨S300000, .i32⟩
  | .hbm, ⟨4, _⟩ => ⟨S300000, .i32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S50000x1, .f32⟩
  | .hbm, ⟨10, _⟩ => ⟨S10000x1, .f32⟩
  | .hbm, ⟨11, _⟩ => ⟨S300000x1, .f32⟩
  | .hbm, ⟨12, _⟩ => ⟨S300000x1, .f32⟩
  | .hbm, ⟨13, _⟩ => ⟨S50000x1, .f32⟩
  | .hbm, ⟨14, _⟩ => ⟨S10000x1, .f32⟩
  | .hbm, ⟨15, _⟩ => ⟨S50000x512, .f32⟩
  | .hbm, ⟨16, _⟩ => ⟨S1x512, .f32⟩
  | .hbm, ⟨17, _⟩ => ⟨S50000x512, .f32⟩
  | .hbm, ⟨18, _⟩ => ⟨S50000x512, .f32⟩
  | .hbm, ⟨19, _⟩ => ⟨S_, .f32⟩
  | .hbm, ⟨20, _⟩ => ⟨S50000x512, .f32⟩
  | .hbm, ⟨21, _⟩ => ⟨S50000x512, .f32⟩
  | .hbm, ⟨22, _⟩ => ⟨S50000x512, .f32⟩
  | .hbm, ⟨23, _⟩ => ⟨S50000x512, .f32⟩
  | .hbm, ⟨24, _⟩ => ⟨S50000x512, .f32⟩
  | .hbm, ⟨25, _⟩ => ⟨S50000x512, .f32⟩
  | .hbm, ⟨26, _⟩ => ⟨S_, .i32⟩
  | .hbm, ⟨27, _⟩ => ⟨S300000, .i32⟩
  | .hbm, ⟨28, _⟩ => ⟨S300000, .i1⟩
  | .hbm, ⟨29, _⟩ => ⟨S_, .i32⟩
  | .hbm, ⟨30, _⟩ => ⟨S300000, .i32⟩
  | .hbm, ⟨31, _⟩ => ⟨S300000, .i32⟩
  | .hbm, ⟨32, _⟩ => ⟨S300000, .i32⟩
  | .hbm, ⟨33, _⟩ => ⟨S300000x1, .i32⟩
  | .hbm, ⟨34, _⟩ => ⟨S300000x512, .f32⟩
  | .hbm, ⟨35, _⟩ => ⟨S_, .i32⟩
  | .hbm, ⟨36, _⟩ => ⟨S300000, .i32⟩
  | .hbm, ⟨37, _⟩ => ⟨S300000, .i1⟩
  | .hbm, ⟨38, _⟩ => ⟨S_, .i32⟩
  | .hbm, ⟨39, _⟩ => ⟨S300000, .i32⟩
  | .hbm, ⟨40, _⟩ => ⟨S300000, .i32⟩
  | .hbm, ⟨41, _⟩ => ⟨S300000, .i32⟩
  | .hbm, ⟨42, _⟩ => ⟨S300000x1, .i32⟩
  | .hbm, ⟨43, _⟩ => ⟨S300000x1, .f32⟩
  | .hbm, ⟨44, _⟩ => ⟨S300000x512, .f32⟩
  | .hbm, ⟨45, _⟩ => ⟨S300000x512, .f32⟩
  | .hbm, ⟨46, _⟩ => ⟨S_, .f32⟩
  | .hbm, ⟨47, _⟩ => ⟨S10000x512, .f32⟩
  | .hbm, ⟨48, _⟩ => ⟨S300000x1, .i32⟩
  | .hbm, ⟨49, _⟩ => ⟨S10000x512, .f32⟩
  | .hbm, ⟨50, _⟩ => ⟨S10000x512, .f32⟩
  | .hbm, ⟨51, _⟩ => ⟨S10000x512, .f32⟩
  | .hbm, ⟨52, _⟩ => ⟨S10000x512, .f32⟩
  | .hbm, ⟨53, _⟩ => ⟨S10000x512, .f32⟩
  | .hbm, ⟨54, _⟩ => ⟨S1x512, .f32⟩
  | .hbm, ⟨55, _⟩ => ⟨S10000x512, .f32⟩
  | .hbm, ⟨56, _⟩ => ⟨S10000x512, .f32⟩
  | .hbm, ⟨57, _⟩ => ⟨S_, .f32⟩
  | .hbm, ⟨58, _⟩ => ⟨S10000x512, .f32⟩
  | .hbm, ⟨59, _⟩ => ⟨S10000x512, .f32⟩
  | .hbm, ⟨60, _⟩ => ⟨S10000x512, .f32⟩
  | .hbm, ⟨61, _⟩ => ⟨S10000x512, .f32⟩
  | .hbm, ⟨62, _⟩ => ⟨S_, .i32⟩
  | .hbm, ⟨63, _⟩ => ⟨S300000, .i32⟩
  | .hbm, ⟨64, _⟩ => ⟨S300000, .i1⟩
  | .hbm, ⟨65, _⟩ => ⟨S_, .i32⟩
  | .hbm, ⟨66, _⟩ => ⟨S300000, .i32⟩
  | .hbm, ⟨67, _⟩ => ⟨S300000, .i32⟩
  | .hbm, ⟨68, _⟩ => ⟨S300000, .i32⟩
  | .hbm, ⟨69, _⟩ => ⟨S300000x1, .i32⟩
  | .hbm, ⟨70, _⟩ => ⟨S300000x512, .f32⟩
  | .hbm, ⟨71, _⟩ => ⟨S_, .i32⟩
  | .hbm, ⟨72, _⟩ => ⟨S300000, .i32⟩
  | .hbm, ⟨73, _⟩ => ⟨S300000, .i1⟩
  | .hbm, ⟨74, _⟩ => ⟨S_, .i32⟩
  | .hbm, ⟨75, _⟩ => ⟨S300000, .i32⟩
  | .hbm, ⟨76, _⟩ => ⟨S300000, .i32⟩
  | .hbm, ⟨77, _⟩ => ⟨S300000, .i32⟩
  | .hbm, ⟨78, _⟩ => ⟨S300000x1, .i32⟩
  | .hbm, ⟨79, _⟩ => ⟨S300000x1, .f32⟩
  | .hbm, ⟨80, _⟩ => ⟨S300000x512, .f32⟩
  | .hbm, ⟨81, _⟩ => ⟨S300000x512, .f32⟩
  | .hbm, ⟨82, _⟩ => ⟨S_, .f32⟩
  | .hbm, ⟨83, _⟩ => ⟨S50000x512, .f32⟩
  | .hbm, ⟨84, _⟩ => ⟨S300000x1, .i32⟩
  | .hbm, ⟨85, _⟩ => ⟨S50000x512, .f32⟩
  | .hbm, ⟨86, _⟩ => ⟨S50000x512, .f32⟩
  | .hbm, ⟨87, _⟩ => ⟨S50000x512, .f32⟩
  | .hbm, ⟨88, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_1 : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call1_cst : Ref sig .tc := ⟨.hbm, 57, rfl⟩
abbrev main_call1_v0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_3 : Ref sig .tc := ⟨.hbm, 62, rfl⟩
abbrev main_v38 : Ref sig .tc := ⟨.hbm, 63, rfl⟩
abbrev main_v39 : Ref sig .tc := ⟨.hbm, 64, rfl⟩
abbrev main_c_4 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_5 : Ref sig .tc := ⟨.hbm, 71, rfl⟩
abbrev main_v45 : Ref sig .tc := ⟨.hbm, 72, rfl⟩
abbrev main_v46 : Ref sig .tc := ⟨.hbm, 73, rfl⟩
abbrev main_c_6 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_7 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S50000x1_S50000x512_0_1 : S50000x1.BroadcastsInDim S50000x512 (![0, 1] : Fin 2 → Fin S50000x512.rank)
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x512_0_1 : S300000x1.BroadcastsInDim S300000x512 (![0, 1] : Fin 2 → Fin S300000x512.rank)
  bcast_S_S10000x512 : S_.BroadcastsInDim S10000x512 (![] : Fin 0 → Fin S10000x512.rank)
  bcast_S10000x1_S10000x512_0_1 : S10000x1.BroadcastsInDim S10000x512 (![0, 1] : Fin 2 → Fin S10000x512.rank)
  bcast_S1x512_S10000x512_0_1 : S1x512.BroadcastsInDim S10000x512 (![0, 1] : Fin 2 → Fin S10000x512.rank)
  dot_S50000x512_S512x512_S50000x512_1_0_0_1_n_n_wf : DotDims.WF S50000x512 S512x512 S50000x512 [1] [0] [0] [1] [] []
  gather_S50000x512_S300000x1_S300000x512_1_0_n_n_0_1_1512_wf : GatherDims.WF S50000x512 S300000x1 S300000x512 [1] [0] [] [0] [] 1 ![1, 512]
  gather_S300000x1_S300000x1_S300000x1_1_0_n_n_0_1_11_wf : GatherDims.WF S300000x1 S300000x1 S300000x1 [1] [0] [] [0] [] 1 ![1, 1]
  scatter_S10000x512_S300000x1_S300000x512_1_0_0_1_wf : ScatterDims.WF S10000x512 S300000x1 S300000x512 [1] [0] [0] 1
  dot_S10000x512_S512x512_S10000x512_1_0_0_1_n_n_wf : DotDims.WF S10000x512 S512x512 S10000x512 [1] [0] [0] [1] [] []
  gather_S10000x512_S300000x1_S300000x512_1_0_n_n_0_1_1512_wf : GatherDims.WF S10000x512 S300000x1 S300000x512 [1] [0] [] [0] [] 1 ![1, 512]
  scatter_S50000x512_S300000x1_S300000x512_1_0_0_1_wf : ScatterDims.WF S50000x512 S300000x1 S300000x512 [1] [0] [0] 1

variable [Facts₀]

def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def gather_S50000x512_S300000x1_S300000x512_1_0_n_n_0_1_1512 : GatherDims S50000x512 S300000x1 S300000x512 where
  offsetDims := [1]
  collapsedSliceDims := [0]
  operandBatchingDims := []
  startIndicesBatchingDims := []
  startIndexMap := [0]
  indexVectorDim := 1
  sliceSizes := ![1, 512]
  wf := gather_S50000x512_S300000x1_S300000x512_1_0_n_n_0_1_1512_wf
def gather_S300000x1_S300000x1_S300000x1_1_0_n_n_0_1_11 : GatherDims S300000x1 S300000x1 S300000x1 where
  offsetDims := [1]
  collapsedSliceDims := [0]
  operandBatchingDims := []
  startIndicesBatchingDims := []
  startIndexMap := [0]
  indexVectorDim := 1
  sliceSizes := ![1, 1]
  wf := gather_S300000x1_S300000x1_S300000x1_1_0_n_n_0_1_11_wf
def scatter_S10000x512_S300000x1_S300000x512_1_0_0_1 : ScatterDims S10000x512 S300000x1 S300000x512 where
  updateWindowDims := [1]
  insertedWindowDims := [0]
  scatterDimsToOperandDims := [0]
  indexVectorDim := 1
  wf := scatter_S10000x512_S300000x1_S300000x512_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def gather_S10000x512_S300000x1_S300000x512_1_0_n_n_0_1_1512 : GatherDims S10000x512 S300000x1 S300000x512 where
  offsetDims := [1]
  collapsedSliceDims := [0]
  operandBatchingDims := []
  startIndicesBatchingDims := []
  startIndexMap := [0]
  indexVectorDim := 1
  sliceSizes := ![1, 512]
  wf := gather_S10000x512_S300000x1_S300000x512_1_0_n_n_0_1_1512_wf
def scatter_S50000x512_S300000x1_S300000x512_1_0_0_1 : ScatterDims S50000x512 S300000x1 S300000x512 where
  updateWindowDims := [1]
  insertedWindowDims := [0]
  scatterDimsToOperandDims := [0]
  indexVectorDim := 1
  wf := scatter_S50000x512_S300000x1_S300000x512_1_0_0_1_wf

class Facts : Prop extends Facts₀ where

variable [Facts]
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«118630_j89988154785842_2_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.LibDenseLayers.lean ====
/-
  One dense layer, x · W + b, read at an entry on the extended reals, in the two spellings it has here: a pipelined
  kernel body's (a matrix product of the operands narrowed to bf16 into the zero accumulator, plus the bias row kept as a
  [1, N] block and repeated down the rows) and a host program's (a dot_general plus the same row repeated by a
  broadcast_in_dim).  On the extended reals a change of float format is the identity and both products are the plain
  sum over the contracted axis, so both spellings read, at (r, g), as  Σₖ x (r, k) · W (k, g) + b (0, g).

  For any extents R, K, N.  Also here: the same for a second product h · W without bias (`dotAt`), the host's zero
  matrix read at an entry, a bias vector made a [1, N] row by a reshape against the row a broadcast_in_dim along axis 1
  makes of it (`row_of_vector`), and the whole-matrix layer functions the entries belong to: x · W + b (`affLayer`),
  its rectification (`projLayer`) and the rectified two-input layer (a · Wl + b) + h · Wr (`sageLayer`).
-/
import Idealize.ShloMosaic.Lib.Pipeline.Value
import Idealize.ShloMosaic.Lib.ValueIdx
import Idealize.ShloMosaic.PureOps.Ideal.Laws
import proofs.«118630_j89988154785842_2_alg».proof.Proof.LibPlainMatmul
import proofs.«118630_j89988154785842_2_alg».proof.Proof.LibPlainDot
import proofs.«118630_j89988154785842_2_alg».proof.Proof.LibHostRows
import proofs.«118630_j89988154785842_2_alg».proof.Proof.LibBlockLayout

noncomputable section

open scoped BigOperators

namespace Cert.SageLayers

open Idealize.ShloMosaic Idealize.ShloMosaic.ValueIdx

variable {R K N : ℕ}

/-- Entry (r, g) of x · W + b, the bias a [1, N] row. -/
def affineAt (A : (⟨2, ![R, K]⟩ : Shape).Idx → EReal) (W : (⟨2, ![K, N]⟩ : Shape).Idx → EReal)
    (b : (⟨2, ![1, N]⟩ : Shape).Idx → EReal) (r : Fin R) (g : Fin N) : EReal :=
  (∑ k : Fin K, A (ix2 r k) * W (ix2 k g)) + b (ix2 (0 : Fin 1) g)

/-- The zero word of f32, on the extended reals. -/
abbrev zeroF : EReal := Ideal.ofBits .f32 0x00000000#32

/-- Entry (r, g) of h · W. -/
def dotAt (H : (⟨2, ![R, K]⟩ : Shape).Idx → EReal) (W : (⟨2, ![K, N]⟩ : Shape).Idx → EReal) (r : Fin R) (g : Fin N) : EReal :=
  ∑ k : Fin K, H (ix2 r k) * W (ix2 k g)

/-- The layer x · W + b as a whole matrix. -/
def affLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => affineAt A W b (i 0) (i 1)

/-- The rectified layer max (x · W + b, 0) as a whole matrix. -/
def projLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => max (affineAt A W b (i 0) (i 1)) zeroF

/-- The rectified two-input layer max ((a · Wl + b) + h · Wr, 0) as a whole matrix. -/
def sageLayer {K' : ℕ} (A : (⟨2, ![R, K]⟩ : Shape).Idx → EReal) (H : (⟨2, ![R, K']⟩ : Shape).Idx → EReal)
    (Wl : (⟨2, ![K, N]⟩ : Shape).Idx → EReal) (b : (⟨2, ![1, N]⟩ : Shape).Idx → EReal)
    (Wr : (⟨2, ![K', N]⟩ : Shape).Idx → EReal) : (⟨2, ![R, N]⟩ : Shape).Idx → EReal :=
  fun i => max (affineAt A Wl b (i 0) (i 1) + dotAt H Wr (i 0) (i 1)) zeroF

/-- The kernel body's second product, read at an entry. -/
theorem kernel_dot_at (H : FVec Ideal ⟨2, ![R, K]⟩ .f32) (W : FVec Ideal ⟨2, ![K, N]⟩ .f32)
    (h1 : FTy.bf16.bits < FTy.f32.bits) (h2 : FTy.bf16.bits < FTy.f32.bits) (r : Fin R) (g : Fin N) :
    matmul (DotDims.plain R K N) none (truncf .bf16 H h1) (truncf .bf16 W h2) (constant ⟨2, ![R, N]⟩ .f32 0x00000000#32) (ix2 r g)
      = dotAt H W r g :=
  Cert.LibPlainMatmul.matmul_zero_apply none (truncf .bf16 H h1) (truncf .bf16 W h2) r g

/-- The host's product read at an entry. -/
theorem host_dot_at (H : FVec Ideal ⟨2, ![R, K]⟩ .f32) (W : FVec Ideal ⟨2, ![K, N]⟩ .f32) (r : Fin R) (g : Fin N) :
    Host.dotGeneral (DotDims.plain R K N) none H W (ix2 r g) = dotAt H W r g :=
  Cert.LibPlainDot.dotGeneral_apply none H W r g

/-- The host's zero matrix read at an entry. -/
theorem host_zero_at {s : Shape} (d : Fin (⟨0, ![]⟩ : Shape).rank → Fin s.rank) (hb : (⟨0, ![]⟩ : Shape).BroadcastsInDim s d)
    (i : s.Idx) : broadcastInDim s d hb (constant (F := Ideal) ⟨0, ![]⟩ .f32 0x00000000#32) i = zeroF :=
  broadcastInDim_apply d hb _ i ix0 (fun a => a.elim0)

/-- The kernel body's spelling of the layer before its rectifier. -/
theorem kernel_affine_at (A : FVec Ideal ⟨2, ![R, K]⟩ .f32) (W : FVec Ideal ⟨2, ![K, N]⟩ .f32)
    (b : FVec Ideal ⟨2, ![1, N]⟩ .f32) (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![R, N]⟩)
    (r : Fin R) (g : Fin N) :
    addf (matmul (DotDims.plain R K N) none (truncf .bf16 A h1) (truncf .bf16 W h2) (constant ⟨2, ![R, N]⟩ .f32 0x00000000#32))
        (broadcastTo ⟨2, ![R, N]⟩ (shapeCast ⟨2, ![1, N]⟩ b hc) hb) (ix2 r g)
      = affineAt A W b r g := by
  rw [addf_apply]
  refine congrArg₂ (· + ·) ?_ ?_
  · exact Cert.LibPlainMatmul.matmul_zero_apply none (truncf .bf16 A h1) (truncf .bf16 W h2) r g
  · rw [Cert.LibBlockLayout.rowBroadcast_at, shapeCast_self]

/-- The host's spelling of the layer before its rectifier, the bias given as a vector. -/
theorem host_affine_at (A : FVec Ideal ⟨2, ![R, K]⟩ .f32) (W : FVec Ideal ⟨2, ![K, N]⟩ .f32)
    (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (r : Fin R) (g : Fin N) :
    addf (Host.dotGeneral (DotDims.plain R K N) none A W)
        (broadcastInDim ⟨2, ![R, N]⟩ d2 hb2 (broadcastInDim ⟨2, ![1, N]⟩ d1 hb1 b)) (ix2 r g)
      = affineAt A W (broadcastInDim ⟨2, ![1, N]⟩ d1 hb1 b) r g := by
  rw [addf_apply]
  refine congrArg₂ (· + ·) ?_ ?_
  · exact Cert.LibPlainDot.dotGeneral_apply none A W r g
  · exact Cert.LibHostRows.bcast_1b_ab_at d2 hd20 hd21 hb2 _ r g

/-- A vector kept as a [1, N] row by a reshape is the same row a broadcast_in_dim along axis 1 makes of it. -/
theorem row_of_vector (b : (⟨1, ![N]⟩ : Shape).Idx → EReal)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (hc : (⟨1, ![N]⟩ : Shape).ShapeCasts ⟨2, ![1, N]⟩) :
    broadcastInDim ⟨2, ![1, N]⟩ d1 hb1 b = shapeCast ⟨2, ![1, N]⟩ b hc := by
  funext i
  obtain ⟨u, j, rfl⟩ : ∃ (u : Fin 1) (j : Fin N), i = ix2 u j := ⟨i 0, i 1, eq_ix2 i⟩
  rw [Cert.LibHostRows.bcast_b_1b_at d1 hd1 hb1 b u j]
  refine (shapeCast_apply b hc (ix2 u j) (ix1 j) ?_).symm
  rw [Shape.rowMajor_val_one, Shape.rowMajor_val_two]
  have hu : u.val = 0 := by omega
  show j.val = u.val * N + j.val
  rw [hu, Nat.zero_mul, Nat.zero_add]

end Cert.SageLayers

end
-- ==== Proof.LibHostLayers.lean ====
/-
  The three layers as the host program spells them — a dot_general, the bias vector made a row and repeated down the
  rows by two broadcast_in_dims, a maximum against the zero matrix — are, as whole matrices on the extended reals, the
  layer functions the kernel's tiles are restrictions of (LibDenseLayers): `host_proj_eq` for max (x · W + b, 0),
  `host_sage_eq` for max ((a · Wl + b) + h · Wr, 0), `host_aff_eq` for x · W + b.  For any extents; the products over
  the plain dimension record, the axis maps and their values taken as hypotheses.
-/
import proofs.«118630_j89988154785842_2_alg».proof.Proof.LibDenseLayers

noncomputable section

open scoped BigOperators

namespace Cert.SageLayers

open Idealize.ShloMosaic Idealize.ShloMosaic.ValueIdx

variable {R K N : ℕ}

/-- max (x · W + b, 0) in the host's spelling. -/
theorem host_proj_eq (A : FVec Ideal ⟨2, ![R, K]⟩ .f32) (W : FVec Ideal ⟨2, ![K, N]⟩ .f32) (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0) :
    maximumf (addf (Host.dotGeneral (DotDims.plain R K N) none A W)
        (broadcastInDim ⟨2, ![R, N]⟩ d2 hb2 (broadcastInDim ⟨2, ![1, N]⟩ d1 hb1 b)))
      (broadcastInDim ⟨2, ![R, N]⟩ d0 hb0 (constant (F := Ideal) ⟨0, ![]⟩ .f32 0x00000000#32))
      = projLayer A W (broadcastInDim ⟨2, ![1, N]⟩ d1 hb1 b) := by
  funext i
  obtain ⟨r, g, rfl⟩ : ∃ (r : Fin R) (g : Fin N), i = ix2 r g := ⟨i 0, i 1, eq_ix2 i⟩
  rw [maximumf_apply, host_zero_at]
  exact congrArg (max · zeroF) (host_affine_at A W b d1 hd1 hb1 d2 hd20 hd21 hb2 r g)

/-- max ((a · Wl + b) + h · Wr, 0) in the host's spelling. -/
theorem host_sage_eq {K' : ℕ} (A : FVec Ideal ⟨2, ![R, K]⟩ .f32) (H : FVec Ideal ⟨2, ![R, K']⟩ .f32)
    (Wl : FVec Ideal ⟨2, ![K, N]⟩ .f32) (b : FVec Ideal ⟨1, ![N]⟩ .f32) (Wr : FVec Ideal ⟨2, ![K', N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0) :
    maximumf (addf (addf (Host.dotGeneral (DotDims.plain R K N) none A Wl)
          (broadcastInDim ⟨2, ![R, N]⟩ d2 hb2 (broadcastInDim ⟨2, ![1, N]⟩ d1 hb1 b)))
        (Host.dotGeneral (DotDims.plain R K' N) none H Wr))
      (broadcastInDim ⟨2, ![R, N]⟩ d0 hb0 (constant (F := Ideal) ⟨0, ![]⟩ .f32 0x00000000#32))
      = sageLayer A H Wl (broadcastInDim ⟨2, ![1, N]⟩ d1 hb1 b) Wr := by
  funext i
  obtain ⟨r, g, rfl⟩ : ∃ (r : Fin R) (g : Fin N), i = ix2 r g := ⟨i 0, i 1, eq_ix2 i⟩
  rw [maximumf_apply, host_zero_at, addf_apply]
  exact congrArg (max · zeroF)
    (congrArg₂ (· + ·) (host_affine_at A Wl b d1 hd1 hb1 d2 hd20 hd21 hb2 r g) (host_dot_at H Wr r g))

/-- x · W + b in the host's spelling. -/
theorem host_aff_eq (A : FVec Ideal ⟨2, ![R, K]⟩ .f32) (W : FVec Ideal ⟨2, ![K, N]⟩ .f32) (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2) :
    addf (Host.dotGeneral (DotDims.plain R K N) none A W)
        (broadcastInDim ⟨2, ![R, N]⟩ d2 hb2 (broadcastInDim ⟨2, ![1, N]⟩ d1 hb1 b))
      = affLayer A W (broadcastInDim ⟨2, ![1, N]⟩ d1 hb1 b) := by
  funext i
  obtain ⟨r, g, rfl⟩ : ∃ (r : Fin R) (g : Fin N), i = ix2 r g := ⟨i 0, i 1, eq_ix2 i⟩
  exact host_affine_at A W b d1 hd1 hb1 d2 hd20 hd21 hb2 r g

end Cert.SageLayers

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibMessageLayer.lean ====
/-
  The two dense pieces of one round of message passing on an incidence structure, on the extended reals and for any
  extents R, K, N, each in the two spellings it has: a pipelined kernel body's and a host program's.

  A MESSAGE LAYER sends every row of its input through a rectified dense layer and scales it by the row's own weight,

      message A W b s (r, g) = max (Σₖ A (r, k) · W (k, g) + b (0, g), 0) · s (r, 0).

  A kernel body narrows both operands to bf16 (the identity on the extended reals), multiplies them into the zero
  accumulator, adds the bias kept as a [1, N] block and repeated down the rows, takes the maximum with a splat zero,
  and multiplies by the weight column repeated along the N columns.  A host program takes a dot_general, adds the bias
  vector made a row and repeated by two broadcast_in_dims, takes the maximum with the zero matrix, and multiplies by
  the weight column repeated by a broadcast_in_dim.  Both are `message`: entry by entry for the body
  (`body_message_at`), as one function for the host (`host_message_eq`).

  An EDGE UPDATE adds what was gathered into an edge to the edge's own features and divides by the edge's normalizer,

      edgeUpdate E Agg rs (r, g) = (E (r, g) + Agg (r, g)) / rs (r, 0),

  the quotient being the extended reals' division in both programs (`body_edgeUpdate_at`, `host_edgeUpdate_eq`).

  An entry of either reads only one row of the row-indexed operands (`message_congr_at`, `edgeUpdate_congr_at`): this is
  what makes a tile of rows computed by a kernel body the block of the whole matrix.  Nothing here needs the entries
  to be finite: the only laws used are the readings of the operations at an entry.
-/
import Idealize.ShloMosaic.Lib.Pipeline.Value
import Idealize.ShloMosaic.Lib.ValueIdx
import Idealize.ShloMosaic.PureOps.Ideal.Laws
import proofs.«118630_j89988154785842_2_alg».proof.Proof.LibDenseLayers
import proofs.«118630_j89988154785842_2_alg».proof.Proof.LibHostLayers
import proofs.«118630_j89988154785842_2_alg».proof.Proof.LibKeepdims

noncomputable section

open scoped BigOperators

namespace Cert.Incidence

open Idealize.ShloMosaic Idealize.ShloMosaic.ValueIdx Cert.SageLayers

variable {R K N : ℕ}

/-- The message layer as a whole matrix: the rectified layer's entry times the weight of the entry's row. -/
def message (A : (⟨2, ![R, K]⟩ : Shape).Idx → EReal) (W : (⟨2, ![K, N]⟩ : Shape).Idx → EReal)
    (b : (⟨2, ![1, N]⟩ : Shape).Idx → EReal) (s : (⟨2, ![R, 1]⟩ : Shape).Idx → EReal) :
    (⟨2, ![R, N]⟩ : Shape).Idx → EReal :=
  fun i => projLayer A W b i * s (ix2 (i 0) (0 : Fin 1))

/-- The message at (r, g), the index written from its coordinates. -/
theorem message_at (A : (⟨2, ![R, K]⟩ : Shape).Idx → EReal) (W : (⟨2, ![K, N]⟩ : Shape).Idx → EReal)
    (b : (⟨2, ![1, N]⟩ : Shape).Idx → EReal) (s : (⟨2, ![R, 1]⟩ : Shape).Idx → EReal) (r : Fin R) (g : Fin N) :
    message A W b s (ix2 r g) = max (affineAt A W b r g) zeroF * s (ix2 r (0 : Fin 1)) := rfl

/-- A kernel body's spelling of the message, read at an entry of its tile. -/
theorem body_message_at (A : FVec Ideal ⟨2, ![R, K]⟩ .f32) (W : FVec Ideal ⟨2, ![K, N]⟩ .f32)
    (b : FVec Ideal ⟨2, ![1, N]⟩ .f32) (s : FVec Ideal ⟨2, ![R, 1]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![R, N]⟩)
    (hs : (⟨2, ![R, 1]⟩ : Shape).Broadcasts ⟨2, ![R, N]⟩) (r : Fin R) (g : Fin N) :
    mulf (maximumf
          (addf (matmul (DotDims.plain R K N) none (truncf .bf16 A h1) (truncf .bf16 W h2)
              (constant ⟨2, ![R, N]⟩ .f32 0x00000000#32))
            (broadcastTo ⟨2, ![R, N]⟩ (shapeCast ⟨2, ![1, N]⟩ b hc) hb))
          (broadcast ⟨2, ![R, N]⟩ (Scalar.ofBits (F := Ideal) .f32 0x00000000#32)))
        (broadcastTo ⟨2, ![R, N]⟩ s hs) (ix2 r g)
      = message A W b s (ix2 r g) := by
  rw [message_at, mulf_apply, maximumf_apply, broadcast_apply, kernel_affine_at A W b h1 h2 hc hb r g,
    Cert.LibKeepdims.broadcastTo_a1_ab_apply s hs r g]
  rfl

/-- The host's spelling of the message, as one function of its operands; the bias enters as a vector. -/
theorem host_message_eq (A : FVec Ideal ⟨2, ![R, K]⟩ .f32) (W : FVec Ideal ⟨2, ![K, N]⟩ .f32) (b : FVec Ideal ⟨1, ![N]⟩ .f32)
    (s : FVec Ideal ⟨2, ![R, 1]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0)
    (d3 : Fin (⟨2, ![R, 1]⟩ : Shape).rank → Fin (⟨2, ![R, N]⟩ : Shape).rank) (hd30 : d3 0 = 0) (hd31 : d3 1 = 1)
    (hb3 : (⟨2, ![R, 1]⟩ : Shape).BroadcastsInDim ⟨2, ![R, N]⟩ d3) :
    mulf (maximumf (addf (Host.dotGeneral (DotDims.plain R K N) none A W)
          (broadcastInDim ⟨2, ![R, N]⟩ d2 hb2 (broadcastInDim ⟨2, ![1, N]⟩ d1 hb1 b)))
        (broadcastInDim ⟨2, ![R, N]⟩ d0 hb0 (constant (F := Ideal) ⟨0, ![]⟩ .f32 0x00000000#32)))
      (broadcastInDim ⟨2, ![R, N]⟩ d3 hb3 s)
      = message A W (broadcastInDim ⟨2, ![1, N]⟩ d1 hb1 b) s := by
  rw [host_proj_eq A W b d1 hd1 hb1 d2 hd20 hd21 hb2 d0 hb0]
  funext i
  obtain ⟨r, g, rfl⟩ : ∃ (r : Fin R) (g : Fin N), i = ix2 r g := ⟨i 0, i 1, eq_ix2 i⟩
  rw [mulf_apply, Cert.LibHostRows.bcast_a1_ab_at d3 hd30 hd31 hb3 s r g]
  rfl

/-- An entry of the message reads one row of the input, one column of the weights, one bias entry and the row's own
    weight: two sets of operands that agree there give the same entry, whatever their numbers of rows. -/
theorem message_congr_at {R' : ℕ} (A : (⟨2, ![R, K]⟩ : Shape).Idx → EReal) (A' : (⟨2, ![R', K]⟩ : Shape).Idx → EReal)
    (W W' : (⟨2, ![K, N]⟩ : Shape).Idx → EReal) (b b' : (⟨2, ![1, N]⟩ : Shape).Idx → EReal)
    (s : (⟨2, ![R, 1]⟩ : Shape).Idx → EReal) (s' : (⟨2, ![R', 1]⟩ : Shape).Idx → EReal)
    (r : Fin R) (r' : Fin R') (g g' : Fin N)
    (hA : ∀ k : Fin K, A' (ix2 r' k) = A (ix2 r k)) (hW : ∀ k : Fin K, W' (ix2 k g') = W (ix2 k g))
    (hb : b' (ix2 (0 : Fin 1) g') = b (ix2 (0 : Fin 1) g)) (hs : s' (ix2 r' (0 : Fin 1)) = s (ix2 r (0 : Fin 1))) :
    message A' W' b' s' (ix2 r' g') = message A W b s (ix2 r g) := by
  have hsum : (∑ k : Fin K, A' (ix2 r' k) * W' (ix2 k g')) = ∑ k : Fin K, A (ix2 r k) * W (ix2 k g) :=
    Finset.sum_congr rfl fun k _ => by rw [hA k, hW k]
  rw [message_at, message_at]
  unfold affineAt
  rw [hsum, hb, hs]

/-- The edge update: the edge's own features plus what was gathered into it, divided by the edge's normalizer, the
    quotient being the extended reals' division (`Ideal.div`) in both programs. -/
def edgeUpdate (E Agg : (⟨2, ![R, N]⟩ : Shape).Idx → EReal) (rs : (⟨2, ![R, 1]⟩ : Shape).Idx → EReal) :
    (⟨2, ![R, N]⟩ : Shape).Idx → EReal :=
  fun i => Ideal.div (E i + Agg i) (rs (ix2 (i 0) (0 : Fin 1)))

theorem edgeUpdate_at (E Agg : (⟨2, ![R, N]⟩ : Shape).Idx → EReal) (rs : (⟨2, ![R, 1]⟩ : Shape).Idx → EReal)
    (r : Fin R) (g : Fin N) :
    edgeUpdate E Agg rs (ix2 r g) = Ideal.div (E (ix2 r g) + Agg (ix2 r g)) (rs (ix2 r (0 : Fin 1))) := rfl

/-- A kernel body's spelling of the edge update (the gathered tile passes through an identity cast, the normalizer
    column is repeated along the columns), read at an entry of its tile. -/
theorem body_edgeUpdate_at (x0 x1 : FVec Ideal ⟨2, ![R, N]⟩ .f32) (x2 : FVec Ideal ⟨2, ![R, 1]⟩ .f32)
    (hc : (⟨2, ![R, N]⟩ : Shape).ShapeCasts ⟨2, ![R, N]⟩) (hb : (⟨2, ![R, 1]⟩ : Shape).Broadcasts ⟨2, ![R, N]⟩)
    (r : Fin R) (g : Fin N) :
    divf (addf x0 (shapeCast ⟨2, ![R, N]⟩ x1 hc)) (broadcastTo ⟨2, ![R, N]⟩ x2 hb) (ix2 r g)
      = edgeUpdate x0 x1 x2 (ix2 r g) := by
  rw [edgeUpdate_at, divf_apply, addf_apply, shapeCast_self, Cert.LibKeepdims.broadcastTo_a1_ab_apply x2 hb r g]

/-- The host's spelling of the edge update, as one function of its operands. -/
theorem host_edgeUpdate_eq (E Agg : FVec Ideal ⟨2, ![R, N]⟩ .f32) (rs : FVec Ideal ⟨2, ![R, 1]⟩ .f32)
    (d3 : Fin (⟨2, ![R, 1]⟩ : Shape).rank → Fin (⟨2, ![R, N]⟩ : Shape).rank) (hd30 : d3 0 = 0) (hd31 : d3 1 = 1)
    (hb3 : (⟨2, ![R, 1]⟩ : Shape).BroadcastsInDim ⟨2, ![R, N]⟩ d3) :
    Host.divf (addf E Agg) (broadcastInDim ⟨2, ![R, N]⟩ d3 hb3 rs) = edgeUpdate E Agg rs := by
  funext i
  obtain ⟨r, g, rfl⟩ : ∃ (r : Fin R) (g : Fin N), i = ix2 r g := ⟨i 0, i 1, eq_ix2 i⟩
  show Ideal.div (addf E Agg (ix2 r g)) (broadcastInDim ⟨2, ![R, N]⟩ d3 hb3 rs (ix2 r g)) = _
  rw [edgeUpdate_at, addf_apply, Cert.LibHostRows.bcast_a1_ab_at d3 hd30 hd31 hb3 rs r g]

/-- An entry of the edge update reads the two matrices at that entry and the row's normalizer. -/
theorem edgeUpdate_congr_at {R' : ℕ} (E Agg : (⟨2, ![R, N]⟩ : Shape).Idx → EReal) (E' Agg' : (⟨2, ![R', N]⟩ : Shape).Idx → EReal)
    (rs : (⟨2, ![R, 1]⟩ : Shape).Idx → EReal) (rs' : (⟨2, ![R', 1]⟩ : Shape).Idx → EReal)
    (r : Fin R) (r' : Fin R') (g g' : Fin N)
    (hE : E' (ix2 r' g') = E (ix2 r g)) (hAgg : Agg' (ix2 r' g') = Agg (ix2 r g))
    (hrs : rs' (ix2 r' (0 : Fin 1)) = rs (ix2 r (0 : Fin 1))) :
    edgeUpdate E' Agg' rs' (ix2 r' g') = edgeUpdate E Agg rs (ix2 r g) := by
  rw [edgeUpdate_at, edgeUpdate_at, hE, hAgg, hrs]

end Cert.Incidence

end
-- ==== Proof.Network.lean ====
/-
  The incidence network both programs compute, as one function of the fifteen argument arrays.

  Vertices carry features v [50000, 512], edges carry features e [10000, 512], and 300000 incidences each name a vertex
  (x2), an edge (x3) and a row of the per-incidence weights (x4).  One round of message passing:

    1. every vertex sends  A = message v W₁ b₁ vw  (a rectified dense layer, scaled by the vertex's weight);
    2. every incidence takes its vertex's row of A, times its own weight, and the products are added into the
       incidence's edge (`edgeAgg`: a gather, a product, a scatter-add into zeros);
    3. the edge result is  E' = (e + gathered) / edge normalizer  (`edgeUpdate`);
    4. every edge sends  B = message E' W₂ b₂ ew;
    5. every incidence takes its edge's row of B, times its own weight, added into the incidence's vertex
       (`vertexAgg`), and the vertex result is  (v · vw + gathered) / vertex normalizer  (`vertexOut`).

  Steps 2 and 5 are the SAME host operations in both programs, applied to whatever matrix step 1 or 4 produced, so
  they are definitions here and are never opened: the two programs differ only in how A, E' and B are computed, and
  those are settled as whole matrices (`message`, `edgeUpdate`).  `reference_vertex` and `reference_edge` fold the
  reference program's composed terms into the network's two results.
-/
import proofs.«118630_j89988154785842_2_alg».proof.Proof.Gen.ReferenceIdeal
import proofs.«118630_j89988154785842_2_alg».proof.Proof.LibMessageLayer

noncomputable section

namespace Cert.Incidence

open Idealize.ShloMosaic Idealize.ShloMosaic.ValueIdx Cert.SageLayers
open Cert.ReferenceIdeal Cert.ReferenceIdeal.Facts₀

/-- A float array and an integer array of a given shape, on the extended reals. -/
abbrev Feat (s : Shape) : Type := FVec Ideal s .f32
abbrev Nums (s : Shape) : Type := IVec s 32

/-- Row numbers as a gather takes them: a negative number counts from the end (the extent n is added to it), and
    the vector is made a column. -/
def rowColumn (n : BitVec 32) (x : Nums S300000) : Nums S300000x1 :=
  broadcastInDim S300000x1 ![0] bcast_S300000_S300000x1_0
    (select (cmpi .slt x (broadcastInDim S300000 ![] bcast_S_S300000 (constantI S_ 32 0#32)))
      (addi x (broadcastInDim S300000 ![] bcast_S_S300000 (constantI S_ 32 n))) x)

/-- The incidences' own weights: the rows of w the incidences name, each repeated along the 512 columns. -/
def incidenceWeights (w : Feat S300000x1) (x4 : Nums S300000) : Feat S300000x512 :=
  broadcastInDim S300000x512 ![0, 1] bcast_S300000x1_S300000x512_0_1
    (Host.gather gather_S300000x1_S300000x1_S300000x1_1_0_n_n_0_1_11 w (rowColumn 300000#32 x4))

/-- What the incidences add into the edges: each incidence's vertex row of A times its weight, summed per edge. -/
def edgeAgg (A : Feat S50000x512) (x2 x3 x4 : Nums S300000) (w : Feat S300000x1) : Feat S10000x512 :=
  Host.scatterAdd (F := Ideal) scatter_S10000x512_S300000x1_S300000x512_1_0_0_1
    (broadcastInDim S10000x512 ![] bcast_S_S10000x512 (constant (F := Ideal) S_ .f32 0x00000000#32))
    (broadcastInDim S300000x1 ![0] bcast_S300000_S300000x1_0 x3)
    (mulf (Host.gather gather_S50000x512_S300000x1_S300000x512_1_0_n_n_0_1_1512 A (rowColumn 50000#32 x2))
      (incidenceWeights w x4))

/-- What the incidences add into the vertices: each incidence's edge row of B times its weight, summed per vertex. -/
def vertexAgg (B : Feat S10000x512) (x2 x3 x4 : Nums S300000) (w : Feat S300000x1) : Feat S50000x512 :=
  Host.scatterAdd (F := Ideal) scatter_S50000x512_S300000x1_S300000x512_1_0_0_1
    (broadcastInDim S50000x512 ![] bcast_S_S50000x512 (constant (F := Ideal) S_ .f32 0x00000000#32))
    (broadcastInDim S300000x1 ![0] bcast_S300000_S300000x1_0 x2)
    (mulf (Host.gather gather_S10000x512_S300000x1_S300000x512_1_0_n_n_0_1_1512 B (rowColumn 10000#32 x3))
      (incidenceWeights w x4))

/-- The vertex result from the edges' messages B. -/
def vertexOut (B : Feat S10000x512) (x0 : Feat S50000x512) (x2 x3 x4 : Nums S300000) (x9 : Feat S50000x1)
    (x12 : Feat S300000x1) (x13 : Feat S50000x1) : Feat S50000x512 :=
  Host.divf (F := Ideal)
    (addf (mulf x0 (broadcastInDim S50000x512 ![0, 1] bcast_S50000x1_S50000x512_0_1 x9)) (vertexAgg B x2 x3 x4 x12))
    (broadcastInDim S50000x512 ![0, 1] bcast_S50000x1_S50000x512_0_1 x13)

/-- A bias vector as the [1, 512] row the layers take. -/
def biasRow (b : Feat S512) : Feat S1x512 := broadcastInDim S1x512 ![1] bcast_S512_S1x512_1 b

/-- The edge result of the network. -/
def netEdge (x0 : Feat S50000x512) (x1 : Feat S10000x512) (x2 x3 x4 : Nums S300000) (x5 : Feat S512x512) (x7 : Feat S512)
    (x9 : Feat S50000x1) (x11 : Feat S300000x1) (x14 : Feat S10000x1) : Feat S10000x512 :=
  edgeUpdate (R := 10000) (N := 512) x1
    (edgeAgg (message (R := 50000) (K := 512) (N := 512) x0 x5 (biasRow x7) x9) x2 x3 x4 x11) x14

/-- The vertex result of the network. -/
def netVertex (x0 : Feat S50000x512) (x1 : Feat S10000x512) (x2 x3 x4 : Nums S300000) (x5 x6 : Feat S512x512)
    (x7 x8 : Feat S512) (x9 : Feat S50000x1) (x10 : Feat S10000x1) (x11 x12 : Feat S300000x1) (x13 : Feat S50000x1)
    (x14 : Feat S10000x1) : Feat S50000x512 :=
  vertexOut (message (R := 10000) (K := 512) (N := 512) (netEdge x0 x1 x2 x3 x4 x5 x7 x9 x11 x14) x6 (biasRow x8) x10)
    x0 x2 x3 x4 x9 x12 x13

/-! ## The reference program's spelling -/

/-- The reference's vertex messages. -/
def refVertexMessage (x0 : Feat S50000x512) (x5 : Feat S512x512) (x7 : Feat S512) (x9 : Feat S50000x1) : Feat S50000x512 :=
  mulf (maximumf (addf (Host.dotGeneral (F := Ideal) dot_S50000x512_S512x512_S50000x512_1_0_0_1_n_n none x0 x5)
        (broadcastInDim S50000x512 ![0, 1] bcast_S1x512_S50000x512_0_1 (broadcastInDim S1x512 ![1] bcast_S512_S1x512_1 x7)))
      (broadcastInDim S50000x512 ![] bcast_S_S50000x512 (constant (F := Ideal) S_ .f32 0x00000000#32)))
    (broadcastInDim S50000x512 ![0, 1] bcast_S50000x1_S50000x512_0_1 x9)

/-- The reference's edge messages, from an edge matrix E. -/
def refEdgeMessage (E : Feat S10000x512) (x6 : Feat S512x512) (x8 : Feat S512) (x10 : Feat S10000x1) : Feat S10000x512 :=
  mulf (maximumf (addf (Host.dotGeneral (F := Ideal) dot_S10000x512_S512x512_S10000x512_1_0_0_1_n_n none E x6)
        (broadcastInDim S10000x512 ![0, 1] bcast_S1x512_S10000x512_0_1 (broadcastInDim S1x512 ![1] bcast_S512_S1x512_1 x8)))
      (broadcastInDim S10000x512 ![] bcast_S_S10000x512 (constant (F := Ideal) S_ .f32 0x00000000#32)))
    (broadcastInDim S10000x512 ![0, 1] bcast_S10000x1_S10000x512_0_1 x10)

/-- The reference's edge result. -/
def refEdge (x0 : Feat S50000x512) (x1 : Feat S10000x512) (x2 x3 x4 : Nums S300000) (x5 : Feat S512x512) (x7 : Feat S512)
    (x9 : Feat S50000x1) (x11 : Feat S300000x1) (x14 : Feat S10000x1) : Feat S10000x512 :=
  Host.divf (F := Ideal) (addf x1 (edgeAgg (refVertexMessage x0 x5 x7 x9) x2 x3 x4 x11))
    (broadcastInDim S10000x512 ![0, 1] bcast_S10000x1_S10000x512_0_1 x14)

/-- The reference's vertex result. -/
def refVertex (x0 : Feat S50000x512) (x1 : Feat S10000x512) (x2 x3 x4 : Nums S300000) (x5 x6 : Feat S512x512)
    (x7 x8 : Feat S512) (x9 : Feat S50000x1) (x10 : Feat S10000x1) (x11 x12 : Feat S300000x1) (x13 : Feat S50000x1)
    (x14 : Feat S10000x1) : Feat S50000x512 :=
  vertexOut (refEdgeMessage (refEdge x0 x1 x2 x3 x4 x5 x7 x9 x11 x14) x6 x8 x10) x0 x2 x3 x4 x9 x12 x13

theorem refVertexMessage_eq (x0 : Feat S50000x512) (x5 : Feat S512x512) (x7 : Feat S512) (x9 : Feat S50000x1) :
    refVertexMessage x0 x5 x7 x9 = message (R := 50000) (K := 512) (N := 512) x0 x5 (biasRow x7) x9 :=
  host_message_eq (R := 50000) (K := 512) (N := 512) x0 x5 x7 x9 ![1] rfl bcast_S512_S1x512_1 ![0, 1] rfl rfl
    bcast_S1x512_S50000x512_0_1 ![] bcast_S_S50000x512 ![0, 1] rfl rfl bcast_S50000x1_S50000x512_0_1

theorem refEdgeMessage_eq (E : Feat S10000x512) (x6 : Feat S512x512) (x8 : Feat S512) (x10 : Feat S10000x1) :
    refEdgeMessage E x6 x8 x10 = message (R := 10000) (K := 512) (N := 512) E x6 (biasRow x8) x10 :=
  host_message_eq (R := 10000) (K := 512) (N := 512) E x6 x8 x10 ![1] rfl bcast_S512_S1x512_1 ![0, 1] rfl rfl
    bcast_S1x512_S10000x512_0_1 ![] bcast_S_S10000x512 ![0, 1] rfl rfl bcast_S10000x1_S10000x512_0_1

/-- The reference's edge result is the network's. -/
theorem reference_edge (x0 : Feat S50000x512) (x1 : Feat S10000x512) (x2 x3 x4 : Nums S300000) (x5 : Feat S512x512)
    (x7 : Feat S512) (x9 : Feat S50000x1) (x11 : Feat S300000x1) (x14 : Feat S10000x1) :
    refEdge x0 x1 x2 x3 x4 x5 x7 x9 x11 x14 = netEdge x0 x1 x2 x3 x4 x5 x7 x9 x11 x14 := by
  unfold refEdge netEdge
  rw [refVertexMessage_eq]
  exact host_edgeUpdate_eq (R := 10000) (N := 512) x1 _ x14 ![0, 1] rfl rfl bcast_S10000x1_S10000x512_0_1

/-- The reference's vertex result is the network's. -/
theorem reference_vertex (x0 : Feat S50000x512) (x1 : Feat S10000x512) (x2 x3 x4 : Nums S300000) (x5 x6 : Feat S512x512)
    (x7 x8 : Feat S512) (x9 : Feat S50000x1) (x10 : Feat S10000x1) (x11 x12 : Feat S300000x1) (x13 : Feat S50000x1)
    (x14 : Feat S10000x1) :
    refVertex x0 x1 x2 x3 x4 x5 x6 x7 x8 x9 x10 x11 x12 x13 x14 = netVertex x0 x1 x2 x3 x4 x5 x6 x7 x8 x9 x10 x11 x12 x13 x14 := by
  unfold refVertex netVertex
  rw [reference_edge, refEdgeMessage_eq]

end Cert.Incidence

end
-- ==== Proof.KernelRun.lean ====
/-
  The idealized kernel program's whole run, read at its last boundary.

  The program is a chain of five segments: a stretch of host operations, the first pipelined region, a second
  stretch, the second region, a last stretch.  The contents of a core's buffers at the segment boundaries are a fold
  from the launch memory: a stretch applies the pure functions of its operations in order, a region replaces the
  arrays of its windows by what its write-backs leave and keeps every other buffer.  Write `W5` for the contents
  after the last segment.

  A core's thread state at a boundary is "every unscoped buffer is held at the boundary's contents, the generator
  register is at some state, and the core owes nothing".  The first such state is dealt by the launch, each segment
  carries one to the next, and the last one, read against a final machine state, says that every unscoped buffer of
  the final memory is `W5`'s.  So every weakly fair execution terminates without a fault in a memory that agrees
  with `W5` on every unscoped buffer (`ends_at_last_boundary`), in particular on the two results and on the
  arguments, which the fold carries back unchanged to the launch memory (`run_results`).
-/
import proofs.«118630_j89988154785842_2_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A final memory agrees with the last boundary's contents on every unscoped buffer of every core. -/
def AtLastBoundary (s : MemSt nD τ sig (Elt F)) : Prop :=
  ∀ c : Dev nD, ∀ b ∈ Pipeline.ucRefs τ sig, s.mem (((c : Thread nD τ)).1, b) = W5 m ρ c b

set_option backward.isDefEq.respectTransparency.types false in
/-- Whatever follows from agreement with the last boundary's contents holds of every final state of every weakly
    fair execution, and there is no other outcome: each one terminates, none faults. -/
theorem ends_at_last_boundary {Q : PUnit × MemSt nD τ sig (Elt F) → Prop}
    (hQ : ∀ s : MemSt nD τ sig (Elt F), AtLastBoundary m ρ s → Q (⟨⟩, s)) :
    θ_run defs (onTc (τ := τ) (main (F := F))) ⟨m, fun _ => 0, ρ⟩ Q := by
  refine Pipeline.θ_run_regions_kit (pcfgs (F := F)) adm (pdats m ρ) () cellOf_inj emb₁ defs₀ 𝒱₀ L lv m ρ main (segs m ρ)
    ?segments ?once (O₀ := 0) (hL := fun _ _ => rfl) (G := fun _ => (BI.emp : sProp 𝕄))
    (u₀ := initOf (Pipeline.cells cfgs cellOf_inj) (Pipeline.launchToks cfgs cellOf_inj)) ?element
    (T₀ := fun c => iprop(StableHlo.held (c : Thread nD τ) (Pipeline.ucRefs τ sig) (W0 m ρ c) ∗ R c)) (Tₙ := Tₙ m ρ)
    ?links ?first
    (QY := fun c s => ∀ b ∈ Pipeline.ucRefs τ sig, s.mem (((c : Thread nD τ)).1, b) = W5 m ρ c b) ?last
    (hQ := fun s h => hQ s h)
  case segments =>
    -- the program is the run of its segments
    intro c Q'
    rw [main_run m ρ c]
  case once =>
    -- each pipeline is entered once
    simp only [segs, Pipeline.Seg.pipes_host, Pipeline.Seg.pipes_region, Pipeline.Seg.pipes_nil]
    decide
  case element =>
    -- the launch element is the pipelines' own, and the cores get no ghost resource besides
    simp only [BI.bigSep_emp_const]
    have same : (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) := .rfl
    iintro Hlaunch
    imodintro
    isplitl [Hlaunch]
    · iapply same
      iexact Hlaunch
    · iempintro
  case links =>
    -- each segment starts from the thread state the one before it ends in
    refine ⟨fun _ => .rfl, fun _ => .rfl, fun _ => .rfl, fun _ => .rfl, fun _ => .rfl, fun c => ?_⟩
    dsimp only [Pipeline.Seg.post, hseg, Pipeline.HostSeg.ofOps]
    -- the last stretch ends holding the buffers at the last boundary's contents; regroup the register beside them
    iintro ⟨Hbufs, Hreg, Howes⟩
    isplitr [Howes]
    · isplitl [Hbufs]
      · iexact Hbufs
      · iexact Hreg
    · iexact Howes
  case first =>
    -- core by core: the launch deals the unscoped buffers at the launch memory, the register, and a core owing nothing
    refine Pipeline.initEach L lv fun c => ?_
    rw [Pipeline.unscopedBufs_held c (W0 m ρ c)]
    iintro ⟨⟨Hbufs, -, Howes, -, Hreg, -⟩, -⟩
    imodintro
    isplitl [Hbufs]
    · iexact Hbufs
    · isplitl [Hreg]
      · iexists (ρ c)
        iexact Hreg
      · iexists ∅
        iexact Howes
  case last =>
    -- the buffers held at the last boundary's contents are the final memory's
    intro c s'
    unfold Tₙ StableHlo.held
    iintro ⟨⟨Hbufs, -⟩, Hstate⟩
    imodintro
    iapply (pointsTo_read_all (Pipeline.ucRefs τ sig) (fun b => (((c : Thread nD τ)).1, b)) (W5 m ρ c) s')
    isplitl [Hbufs]
    · iexact Hbufs
    · iexact Hstate

/-- Every weakly fair execution of the program terminates without a fault, with the vertex result and the edge result
    at the last boundary's contents, and with every argument as launched: the fold of the boundaries carries an
    argument's buffer back to the launch memory, since no host operation and no write-back touches it. -/
theorem run_results : θ_run defs (onTc (τ := τ) (main (F := F))) ⟨m, fun _ => 0, ρ⟩ (fun r => ∀ c : Dev nD,
      r.2.mem ((c.tc : Thread nD τ).loc main_v46) = W5 m ρ c (Proc.devRef .tc main_v46)
      ∧ r.2.mem ((c.tc : Thread nD τ).loc main_v22_0) = W5 m ρ c (Proc.devRef .tc main_v22_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  ends_at_last_boundary m ρ fun s h c =>
    ⟨h c _ (mem_uc main_v46 (by decide)),
     h c _ (mem_uc main_v22_0 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c),
     (h c _ (mem_uc main_arg14 (by decide))).trans (W5_main_arg14 m ρ c)⟩

end Cert.KernelIdeal.Whole

end
-- ==== Proof.Stage1Array.lean ====
/-
  What the first pipelined region leaves in its output array.

  The region walks the 50000 rows of the vertex features in 25 tiles of 2000 rows.  At grid point t the body reads
  rows 2000·t … 2000·t + 1999 of the features and of the vertex weights, the whole weight matrix and the whole bias
  row, and writes back a [2000, 512] tile whose entry (p, q) is the message of the tile's own operands
  (`tile1_at`).  An entry of a message reads one row of the features and that row's weight, one column of the weight
  matrix and one bias entry, so the tile's entry (p, q) is the entry (2000·t + p, q) of the message of the WHOLE
  arrays: the tile is the block of that one matrix (`stage1_flushed`).  The 25 blocks tile the array — row r lies in
  block r / 2000 — so after the region the output array is the message of the arrays the region found
  (`stage1_array`), whatever those arrays are: the lemma is stated at any contents `V` of the buffers at the region's
  entry.
-/
import proofs.«118630_j89988154785842_2_alg».proof.Proof.Gen.KernelIdeal.Frame
import proofs.«118630_j89988154785842_2_alg».proof.Proof.LibMessageLayer
import Idealize.ShloMosaic.Lib.Pipeline.Value
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Incidence

variable (V : (c : Dev nD) → (b : Ref sig .tc) → Buf (Elt Ideal) ((c : Thread nD τ).loc b))

/-- The origin of a rank-two array. -/
theorem origin : (![0, 0] : Fin 2 → Nat) = fun _ => 0 := funext fun a => by fin_cases a <;> rfl

/-- The first region's tile at an entry is the message of the tile's own operands. -/
theorem tile1_at (x0 : Vec Ideal S2000x512 .f32) (x1 : Vec Ideal S512x512 .f32) (x2 : Vec Ideal S1x512 .f32)
    (x3 : Vec Ideal S2000x1 .f32) (p : Fin 2000) (q : Fin 512) :
    k0_pay1 x0 x1 x2 x3 (ix2 p q) = message (R := 2000) (K := 512) (N := 512) x0 x1 x2 x3 (ix2 p q) :=
  body_message_at (R := 2000) (K := 512) (N := 512) x0 x1 x2 x3 bitsLt_bf16_f32 bitsLt_bf16_f32
    shapeCasts_S1x512_S1x512 broadcasts_S1x512_S2000x512 broadcasts_S2000x1_S2000x512 p q

/-- The printed index maps over the grid: the feature, weight-column and output tiles move together down the rows, one
    tile per grid point; the weight matrix and the bias row stay in place. -/
theorem rows1 : ∀ t : Fin cfg0.N, win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_4.index t (0 : Fin 2) ∧ win0_3.index t (1 : Fin 2) = 0
    ∧ win0_4.index t (0 : Fin 2) = t.val ∧ win0_4.index t (1 : Fin 2) = 0 :=
  (by decide +kernel : ∀ t : Fin grid0.N, _)

/-- What grid point t writes back is block t of the message of the arrays the region found. -/
theorem stage1_flushed (c : Dev nD) (t : Fin cfg0.N) :
    (dat0 V c).flushed 4 t = ((cfg0.win 4).blk t).view.read (Elt Ideal)
      (message (R := 50000) (K := 512) (N := 512) (V c main_arg0) (V c main_arg5) (V c main_v0) (V c main_arg9)) := by
  show (cfg0.win 4).cut (grid0.coords t) ((dat0 V c).after 4 t) = _
  rw [after0_4]
  unfold out0_4
  rw [View.canon_unit_zero origin]
  simp only [View.ld_unit_zero (S := S2000x512) origin, View.ld_unit_zero (S := S512x512) origin,
    View.ld_unit_zero (S := S1x512) origin, View.ld_unit_zero (S := S2000x1) origin]
  funext j
  obtain ⟨p, q, rfl⟩ : ∃ (p : Fin 2000) (q : Fin 512), j = ix2 p q := ⟨j 0, j 1, eq_ix2 j⟩
  show k0_pay1 (iblk0 V c 0 t) (iblk0 V c 1 t) (iblk0 V c 2 t) (iblk0 V c 3 t) (ix2 p q)
      = message (R := 50000) (K := 512) (N := 512) (V c main_arg0) (V c main_arg5) (V c main_v0) (V c main_arg9)
          (((cfg0.win 4).blk t).view.emb (ix2 p q))
  refine (tile1_at (iblk0 V c 0 t) (iblk0 V c 1 t) (iblk0 V c 2 t) (iblk0 V c 3 t) p q).trans ?_
  refine Eq.trans ?_ (congrArg (message (R := 50000) (K := 512) (N := 512) (V c main_arg0) (V c main_arg5) (V c main_v0)
    (V c main_arg9)) (eq_ix2 (((cfg0.win 4).blk t).view.emb (ix2 p q))).symm)
  obtain ⟨e00, e01, e10, e11, e20, e21, e30, e31, e40, e41⟩ := rows1 t
  refine message_congr_at (R := 50000) (R' := 2000) (V c main_arg0) (iblk0 V c 0 t) (V c main_arg5) (iblk0 V c 1 t)
    (V c main_v0) (iblk0 V c 2 t) (V c main_arg9) (iblk0 V c 3 t) _ p _ q ?_ ?_ ?_ ?_
  · intro k
    show V c main_arg0 (((cfg0.win 0).blk t).view.emb (ix2 p k)) = V c main_arg0 (ix2 _ k)
    refine congrArg (V c main_arg0) (funext fun a => Fin.ext ?_)
    match a with
    | ⟨0, _⟩ => show win0_0.index t (0 : Fin 2) * 2000 + 1 * p.val = win0_4.index t (0 : Fin 2) * 2000 + 1 * p.val; omega
    | ⟨1, _⟩ => show win0_0.index t (1 : Fin 2) * 512 + 1 * k.val = k.val; omega
  · intro k
    show V c main_arg5 (((cfg0.win 1).blk t).view.emb (ix2 k q)) = V c main_arg5 (ix2 k _)
    refine congrArg (V c main_arg5) (funext fun a => Fin.ext ?_)
    match a with
    | ⟨0, _⟩ => show win0_1.index t (0 : Fin 2) * 512 + 1 * k.val = k.val; omega
    | ⟨1, _⟩ => show win0_1.index t (1 : Fin 2) * 512 + 1 * q.val = win0_4.index t (1 : Fin 2) * 512 + 1 * q.val; omega
  · show V c main_v0 (((cfg0.win 2).blk t).view.emb (ix2 (0 : Fin 1) q)) = V c main_v0 (ix2 (0 : Fin 1) _)
    refine congrArg (V c main_v0) (funext fun a => Fin.ext ?_)
    match a with
    | ⟨0, _⟩ => show win0_2.index t (0 : Fin 2) * 1 + 1 * 0 = 0; omega
    | ⟨1, _⟩ => show win0_2.index t (1 : Fin 2) * 512 + 1 * q.val = win0_4.index t (1 : Fin 2) * 512 + 1 * q.val; omega
  · show V c main_arg9 (((cfg0.win 3).blk t).view.emb (ix2 p (0 : Fin 1))) = V c main_arg9 (ix2 _ (0 : Fin 1))
    refine congrArg (V c main_arg9) (funext fun a => Fin.ext ?_)
    match a with
    | ⟨0, _⟩ => show win0_3.index t (0 : Fin 2) * 2000 + 1 * p.val = win0_4.index t (0 : Fin 2) * 2000 + 1 * p.val; omega
    | ⟨1, _⟩ => show win0_3.index t (1 : Fin 2) * 1 + 1 * 0 = 0; omega

/-- An index of the output array is in grid point t's block iff each coordinate is in the block's range on its axis. -/
theorem in_block1 (t : Fin cfg0.N) (i : S50000x512.Idx) :
    i ∈ ((cfg0.win 4).blk t).view.set ↔ ∀ a : Fin 2, win0_4.index t a * S2000x512.size a ≤ (i a).val
      ∧ (i a).val < win0_4.index t a * S2000x512.size a + S2000x512.size a := by
  show i ∈ ((View.whole main_v1).slice (win0_4.rect t)).set ↔ _
  rw [View.set_slice_whole, Rect.mem_set_unit]
  exact Iff.rfl

/-- Every entry of the output array is in some grid point's block: row r in block r / 2000. -/
theorem covered1 (i : S50000x512.Idx) :
    ∃ t : Fin cfg0.N, (cfg0.win 4).flush t = true ∧ i ∈ ((cfg0.win 4).blk t).view.set := by
  have hr : (i 0).val < 50000 := (i 0).isLt
  have hq : (i 1).val < 512 := (i 1).isLt
  have hN : (i 0).val / 2000 < cfg0.N := by show _ < grid0.N; rw [N_0]; omega
  refine ⟨⟨(i 0).val / 2000, hN⟩, flush0_4 _, ?_⟩
  obtain ⟨-, -, -, -, -, -, -, -, e40, e41⟩ := rows1 ⟨(i 0).val / 2000, hN⟩
  have e40' : win0_4.index ⟨(i 0).val / 2000, hN⟩ (0 : Fin 2) = (i 0).val / 2000 := e40
  rw [in_block1]
  intro a
  match a with
  | ⟨0, _⟩ =>
    show win0_4.index ⟨(i 0).val / 2000, hN⟩ (0 : Fin 2) * 2000 ≤ (i 0).val
      ∧ (i 0).val < win0_4.index ⟨(i 0).val / 2000, hN⟩ (0 : Fin 2) * 2000 + 2000
    omega
  | ⟨1, _⟩ =>
    show win0_4.index ⟨(i 0).val / 2000, hN⟩ (1 : Fin 2) * 512 ≤ (i 1).val
      ∧ (i 1).val < win0_4.index ⟨(i 0).val / 2000, hN⟩ (1 : Fin 2) * 512 + 512
    omega

/-- After the region its output array is the message of the arrays the region found. -/
theorem stage1_array (c : Dev nD) :
    (dat0 V c).arrAt 4 cfg0.N
      = message (R := 50000) (K := 512) (N := 512) (V c main_arg0) (V c main_arg5) (V c main_v0) (V c main_arg9) :=
  (dat0 V c).arrAt_eq_of_cover 4 _ (fun t _ => stage1_flushed V c t) (covered1)

end Cert.KernelIdeal.Whole

end
-- ==== Proof.Stage2Arrays.lean ====
/-
  What the second pipelined region leaves in its two output arrays.

  The region walks the 10000 edges in 10 tiles of 1000 rows.  At grid point t the body reads rows 1000·t … 1000·t + 999
  of the edge features, of the matrix gathered into the edges, of the edge normalizers and of the edge weights, the
  whole second weight matrix and the whole second bias row.  It writes back two [1000, 512] tiles: the edge update of
  the tile's operands (`tileUpdate_eq`), and the message of THAT tile through the second layer (`tileMessage_at`).
  An entry of the edge update reads its two matrices at that entry and the row's normalizer; an entry of a message
  reads one row of its input and that row's weight, one column of the weight matrix and one bias entry.  So each
  tile is the block of one whole matrix: the edge update of the arrays the region found (`update_flushed`), and the
  message of that whole edge update (`message_flushed`).  The 10 blocks tile each array — row r lies in block
  r / 1000 — so after the region the two arrays are those two matrices (`update_array`, `message_array`), at any
  contents `V` of the buffers at the region's entry.
-/
import proofs.«118630_j89988154785842_2_alg».proof.Proof.Gen.KernelIdeal.Frame
import proofs.«118630_j89988154785842_2_alg».proof.Proof.LibMessageLayer
import Idealize.ShloMosaic.Lib.Pipeline.Value
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Incidence

variable (V : (c : Dev nD) → (b : Ref sig .tc) → Buf (Elt Ideal) ((c : Thread nD τ).loc b))

/-- The origin of a rank-two array. -/
theorem origin2 : (![0, 0] : Fin 2 → Nat) = fun _ => 0 := funext fun a => by fin_cases a <;> rfl

/-- The first tile the body stores is the edge update of the tile's own operands. -/
theorem tileUpdate_eq (x0 x1 : Vec Ideal S1000x512 .f32) (x3 : Vec Ideal S1000x1 .f32) :
    k1_pay1 x0 x1 x3 = edgeUpdate (R := 1000) (N := 512) x0 x1 x3 := by
  funext j
  obtain ⟨p, q, rfl⟩ : ∃ (p : Fin 1000) (q : Fin 512), j = ix2 p q := ⟨j 0, j 1, eq_ix2 j⟩
  exact body_edgeUpdate_at (R := 1000) (N := 512) x0 x1 x3 shapeCasts_S1000x512_S1000x512 broadcasts_S1000x1_S1000x512 p q

/-- The second tile is the message of the first tile through the second layer. -/
theorem tileMessage_at (x0 x1 : Vec Ideal S1000x512 .f32) (x3 : Vec Ideal S1000x1 .f32) (x8 : Vec Ideal S512x512 .f32)
    (x12 : Vec Ideal S1x512 .f32) (x18 : Vec Ideal S1000x1 .f32) (p : Fin 1000) (q : Fin 512) :
    k1_pay2 x0 x1 x3 x8 x12 x18 (ix2 p q)
      = message (R := 1000) (K := 512) (N := 512) (edgeUpdate (R := 1000) (N := 512) x0 x1 x3) x8 x12 x18 (ix2 p q) := by
  rw [← tileUpdate_eq x0 x1 x3]
  exact body_message_at (R := 1000) (K := 512) (N := 512) (k1_pay1 x0 x1 x3) x8 x12 x18 bitsLt_bf16_f32 bitsLt_bf16_f32
    shapeCasts_S1x512_S1x512 broadcasts_S1x512_S1000x512 broadcasts_S1000x1_S1000x512 p q

/-- The printed index maps over the grid: the six row-tiled windows move together down the rows, one tile per grid
    point; the weight matrix and the bias row stay in place. -/
theorem rows2 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- The whole edge update, of the arrays the region found. -/
abbrev updateOf (c : Dev nD) : S10000x512.Idx → EReal :=
  edgeUpdate (R := 10000) (N := 512) (V c main_arg1) (V c main_v20) (V c main_arg14)

/-- Entry (p, k) of grid point t's first tile is entry (1000·t + p, k) of the whole edge update. -/
theorem update_tile_at (c : Dev nD) (t : Fin cfg1.N) (p : Fin 1000) (k : Fin 512) (r : Fin 10000)
    (hr : r.val = t.val * 1000 + p.val) :
    edgeUpdate (R := 1000) (N := 512) (iblk1 V c 0 t) (iblk1 V c 1 t) (iblk1 V c 2 t) (ix2 p k) = updateOf V c (ix2 r k) := by
  obtain ⟨e00, e01, e10, e11, e20, e21, -⟩ := rows2 t
  refine edgeUpdate_congr_at (R := 10000) (R' := 1000) (V c main_arg1) (V c main_v20) (iblk1 V c 0 t) (iblk1 V c 1 t)
    (V c main_arg14) (iblk1 V c 2 t) r p k k ?_ ?_ ?_
  · show V c main_arg1 (((cfg1.win 0).blk t).view.emb (ix2 p k)) = V c main_arg1 (ix2 r k)
    refine congrArg (V c main_arg1) (funext fun a => Fin.ext ?_)
    match a with
    | ⟨0, _⟩ => show win1_0.index t (0 : Fin 2) * 1000 + 1 * p.val = r.val; omega
    | ⟨1, _⟩ => show win1_0.index t (1 : Fin 2) * 512 + 1 * k.val = k.val; omega
  · show V c main_v20 (((cfg1.win 1).blk t).view.emb (ix2 p k)) = V c main_v20 (ix2 r k)
    refine congrArg (V c main_v20) (funext fun a => Fin.ext ?_)
    match a with
    | ⟨0, _⟩ => show win1_1.index t (0 : Fin 2) * 1000 + 1 * p.val = r.val; omega
    | ⟨1, _⟩ => show win1_1.index t (1 : Fin 2) * 512 + 1 * k.val = k.val; omega
  · show V c main_arg14 (((cfg1.win 2).blk t).view.emb (ix2 p (0 : Fin 1))) = V c main_arg14 (ix2 r (0 : Fin 1))
    refine congrArg (V c main_arg14) (funext fun a => Fin.ext ?_)
    match a with
    | ⟨0, _⟩ => show win1_2.index t (0 : Fin 2) * 1000 + 1 * p.val = r.val; omega
    | ⟨1, _⟩ => show win1_2.index t (1 : Fin 2) * 1 + 1 * 0 = 0; omega

/-- What grid point t writes back to the first output is block t of the whole edge update. -/
theorem update_flushed (c : Dev nD) (t : Fin cfg1.N) :
    (dat1 V c).flushed 6 t = ((cfg1.win 6).blk t).view.read (Elt Ideal) (updateOf V c) := by
  show (cfg1.win 6).cut (grid1.coords t) ((dat1 V c).after 6 t) = _
  rw [after1_6]
  unfold out1_6
  rw [View.canon_unit_zero origin2]
  simp only [View.ld_unit_zero (S := S1000x512) origin2, View.ld_unit_zero (S := S1000x1) origin2]
  funext j
  obtain ⟨p, q, rfl⟩ : ∃ (p : Fin 1000) (q : Fin 512), j = ix2 p q := ⟨j 0, j 1, eq_ix2 j⟩
  show k1_pay1 (iblk1 V c 0 t) (iblk1 V c 1 t) (iblk1 V c 2 t) (ix2 p q)
      = updateOf V c (((cfg1.win 6).blk t).view.emb (ix2 p q))
  rw [tileUpdate_eq (iblk1 V c 0 t) (iblk1 V c 1 t) (iblk1 V c 2 t)]
  obtain ⟨-, -, -, -, -, -, -, -, -, -, -, -, e60, e61, -⟩ := rows2 t
  refine (update_tile_at V c t p q ((((cfg1.win 6).blk t).view.emb (ix2 p q)) 0) ?_).trans ?_
  · show win1_6.index t (0 : Fin 2) * 1000 + 1 * p.val = t.val * 1000 + p.val; omega
  · refine congrArg (updateOf V c) (funext fun a => Fin.ext ?_)
    match a with
    | ⟨0, _⟩ => rfl
    | ⟨1, _⟩ => show q.val = win1_6.index t (1 : Fin 2) * 512 + 1 * q.val; omega

/-- What grid point t writes back to the second output is block t of the message of the whole edge update. -/
theorem message_flushed (c : Dev nD) (t : Fin cfg1.N) :
    (dat1 V c).flushed 7 t = ((cfg1.win 7).blk t).view.read (Elt Ideal)
      (message (R := 10000) (K := 512) (N := 512) (updateOf V c) (V c main_arg6) (V c main_v21) (V c main_arg10)) := by
  show (cfg1.win 7).cut (grid1.coords t) ((dat1 V c).after 7 t) = _
  rw [after1_7]
  unfold out1_7
  rw [View.canon_unit_zero origin2]
  simp only [View.ld_unit_zero (S := S1000x512) origin2, View.ld_unit_zero (S := S1000x1) origin2,
    View.ld_unit_zero (S := S512x512) origin2, View.ld_unit_zero (S := S1x512) origin2]
  funext j
  obtain ⟨p, q, rfl⟩ : ∃ (p : Fin 1000) (q : Fin 512), j = ix2 p q := ⟨j 0, j 1, eq_ix2 j⟩
  show k1_pay2 (iblk1 V c 0 t) (iblk1 V c 1 t) (iblk1 V c 2 t) (iblk1 V c 3 t) (iblk1 V c 4 t) (iblk1 V c 5 t) (ix2 p q)
      = message (R := 10000) (K := 512) (N := 512) (updateOf V c) (V c main_arg6) (V c main_v21) (V c main_arg10)
          (((cfg1.win 7).blk t).view.emb (ix2 p q))
  refine (tileMessage_at (iblk1 V c 0 t) (iblk1 V c 1 t) (iblk1 V c 2 t) (iblk1 V c 3 t) (iblk1 V c 4 t) (iblk1 V c 5 t) p q).trans ?_
  refine Eq.trans ?_ (congrArg (message (R := 10000) (K := 512) (N := 512) (updateOf V c) (V c main_arg6) (V c main_v21)
    (V c main_arg10)) (eq_ix2 (((cfg1.win 7).blk t).view.emb (ix2 p q))).symm)
  obtain ⟨-, -, -, -, -, -, e30, e31, e40, e41, e50, e51, -, -, e70, e71⟩ := rows2 t
  refine message_congr_at (R := 10000) (R' := 1000) (updateOf V c)
    (edgeUpdate (R := 1000) (N := 512) (iblk1 V c 0 t) (iblk1 V c 1 t) (iblk1 V c 2 t))
    (V c main_arg6) (iblk1 V c 3 t) (V c main_v21) (iblk1 V c 4 t) (V c main_arg10) (iblk1 V c 5 t) _ p _ q ?_ ?_ ?_ ?_
  · intro k
    refine update_tile_at V c t p k _ ?_
    show win1_7.index t (0 : Fin 2) * 1000 + 1 * p.val = t.val * 1000 + p.val; omega
  · intro k
    show V c main_arg6 (((cfg1.win 3).blk t).view.emb (ix2 k q)) = V c main_arg6 (ix2 k _)
    refine congrArg (V c main_arg6) (funext fun a => Fin.ext ?_)
    match a with
    | ⟨0, _⟩ => show win1_3.index t (0 : Fin 2) * 512 + 1 * k.val = k.val; omega
    | ⟨1, _⟩ => show win1_3.index t (1 : Fin 2) * 512 + 1 * q.val = win1_7.index t (1 : Fin 2) * 512 + 1 * q.val; omega
  · show V c main_v21 (((cfg1.win 4).blk t).view.emb (ix2 (0 : Fin 1) q)) = V c main_v21 (ix2 (0 : Fin 1) _)
    refine congrArg (V c main_v21) (funext fun a => Fin.ext ?_)
    match a with
    | ⟨0, _⟩ => show win1_4.index t (0 : Fin 2) * 1 + 1 * 0 = 0; omega
    | ⟨1, _⟩ => show win1_4.index t (1 : Fin 2) * 512 + 1 * q.val = win1_7.index t (1 : Fin 2) * 512 + 1 * q.val; omega
  · show V c main_arg10 (((cfg1.win 5).blk t).view.emb (ix2 p (0 : Fin 1))) = V c main_arg10 (ix2 _ (0 : Fin 1))
    refine congrArg (V c main_arg10) (funext fun a => Fin.ext ?_)
    match a with
    | ⟨0, _⟩ => show win1_5.index t (0 : Fin 2) * 1000 + 1 * p.val = win1_7.index t (0 : Fin 2) * 1000 + 1 * p.val; omega
    | ⟨1, _⟩ => show win1_5.index t (1 : Fin 2) * 1 + 1 * 0 = 0; omega

/-- An index of either output array is in grid point t's block iff each coordinate is in the block's range. -/
theorem in_block6 (t : Fin cfg1.N) (i : S10000x512.Idx) :
    i ∈ ((cfg1.win 6).blk t).view.set ↔ ∀ a : Fin 2, win1_6.index t a * S1000x512.size a ≤ (i a).val
      ∧ (i a).val < win1_6.index t a * S1000x512.size a + S1000x512.size a := by
  show i ∈ ((View.whole main_v22_0).slice (win1_6.rect t)).set ↔ _
  rw [View.set_slice_whole, Rect.mem_set_unit]
  exact Iff.rfl

theorem in_block7 (t : Fin cfg1.N) (i : S10000x512.Idx) :
    i ∈ ((cfg1.win 7).blk t).view.set ↔ ∀ a : Fin 2, win1_7.index t a * S1000x512.size a ≤ (i a).val
      ∧ (i a).val < win1_7.index t a * S1000x512.size a + S1000x512.size a := by
  show i ∈ ((View.whole main_v22_1).slice (win1_7.rect t)).set ↔ _
  rw [View.set_slice_whole, Rect.mem_set_unit]
  exact Iff.rfl

/-- Every entry of the first output array is in some grid point's block: row r in block r / 1000. -/
theorem covered6 (i : S10000x512.Idx) :
    ∃ t : Fin cfg1.N, (cfg1.win 6).flush t = true ∧ i ∈ ((cfg1.win 6).blk t).view.set := by
  have hr : (i 0).val < 10000 := (i 0).isLt
  have hq : (i 1).val < 512 := (i 1).isLt
  have hN : (i 0).val / 1000 < cfg1.N := by show _ < grid1.N; rw [N_1]; omega
  refine ⟨⟨(i 0).val / 1000, hN⟩, flush1_6 _, ?_⟩
  obtain ⟨-, -, -, -, -, -, -, -, -, -, -, -, e60, e61, -⟩ := rows2 ⟨(i 0).val / 1000, hN⟩
  have e60' : win1_6.index ⟨(i 0).val / 1000, hN⟩ (0 : Fin 2) = (i 0).val / 1000 := e60
  rw [in_block6]
  intro a
  match a with
  | ⟨0, _⟩ =>
    show win1_6.index ⟨(i 0).val / 1000, hN⟩ (0 : Fin 2) * 1000 ≤ (i 0).val
      ∧ (i 0).val < win1_6.index ⟨(i 0).val / 1000, hN⟩ (0 : Fin 2) * 1000 + 1000
    omega
  | ⟨1, _⟩ =>
    show win1_6.index ⟨(i 0).val / 1000, hN⟩ (1 : Fin 2) * 512 ≤ (i 1).val
      ∧ (i 1).val < win1_6.index ⟨(i 0).val / 1000, hN⟩ (1 : Fin 2) * 512 + 512
    omega

/-- The same for the second output array. -/
theorem covered7 (i : S10000x512.Idx) :
    ∃ t : Fin cfg1.N, (cfg1.win 7).flush t = true ∧ i ∈ ((cfg1.win 7).blk t).view.set := by
  have hr : (i 0).val < 10000 := (i 0).isLt
  have hq : (i 1).val < 512 := (i 1).isLt
  have hN : (i 0).val / 1000 < cfg1.N := by show _ < grid1.N; rw [N_1]; omega
  refine ⟨⟨(i 0).val / 1000, hN⟩, flush1_7 _, ?_⟩
  obtain ⟨-, -, -, -, -, -, -, -, -, -, -, -, -, -, e70, e71⟩ := rows2 ⟨(i 0).val / 1000, hN⟩
  have e70' : win1_7.index ⟨(i 0).val / 1000, hN⟩ (0 : Fin 2) = (i 0).val / 1000 := e70
  rw [in_block7]
  intro a
  match a with
  | ⟨0, _⟩ =>
    show win1_7.index ⟨(i 0).val / 1000, hN⟩ (0 : Fin 2) * 1000 ≤ (i 0).val
      ∧ (i 0).val < win1_7.index ⟨(i 0).val / 1000, hN⟩ (0 : Fin 2) * 1000 + 1000
    omega
  | ⟨1, _⟩ =>
    show win1_7.index ⟨(i 0).val / 1000, hN⟩ (1 : Fin 2) * 512 ≤ (i 1).val
      ∧ (i 1).val < win1_7.index ⟨(i 0).val / 1000, hN⟩ (1 : Fin 2) * 512 + 512
    omega

/-- After the region its first output array is the edge update of the arrays the region found. -/
theorem update_array (c : Dev nD) : (dat1 V c).arrAt 6 cfg1.N = updateOf V c :=
  (dat1 V c).arrAt_eq_of_cover 6 _ (fun t _ => update_flushed V c t) covered6

/-- After the region its second output array is the message of that edge update through the second layer. -/
theorem message_array (c : Dev nD) :
    (dat1 V c).arrAt 7 cfg1.N
      = message (R := 10000) (K := 512) (N := 512) (updateOf V c) (V c main_arg6) (V c main_v21) (V c main_arg10) :=
  (dat1 V c).arrAt_eq_of_cover 7 _ (fun t _ => message_flushed V c t) covered7

end Cert.KernelIdeal.Whole

end
-- ==== Proof.KernelValue.lean ====
/-
  What the last boundary's contents hold at the two results, as functions of the launch memory's arguments.

  The contents at the five boundaries are a fold from the launch memory.  An argument's buffer is written by no host
  operation and is no region's output, so every boundary holds it as launched (`atK_argN`: through a stretch of host
  operations because none writes it, through a region either because it is not one of the region's arrays or because
  it is an input array, which a region leaves as entered).  The other buffers the results depend on:

    boundary 1   the first bias row, the bias vector reshaped to [1, 512]                          (`at1_row`)
    boundary 2   the first region's output, the vertices' messages                                 (`at2_messages`)
    boundary 3   what the incidences add into the edges, and the second bias row                   (`at3_gathered`, `at3_row`)
    boundary 4   the second region's outputs: the edge result and the edges' messages              (`at4_edges`, `at4_messages`)
    boundary 5   the vertex result; the edge result, untouched by the last stretch                 (`vertex_value`, `edge_value`)

  The host stretches between the regions are the network's own definitions (`edgeAgg`, `vertexOut`) applied to the
  buffers of the boundary before; a reshaped bias vector is the row a broadcast along axis 1 makes of it.  So the two
  results are the network's `netVertex` and `netEdge` of the fifteen arguments.
-/
import proofs.«118630_j89988154785842_2_alg».proof.Proof.Gen.KernelIdeal.Frame
import proofs.«118630_j89988154785842_2_alg».proof.Proof.Stage1Array
import proofs.«118630_j89988154785842_2_alg».proof.Proof.Stage2Arrays
import proofs.«118630_j89988154785842_2_alg».proof.Proof.Network
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)
open Cert.Incidence

variable (m : (ℓ : Loc nD τ sig) → Buf (Elt Ideal) ℓ) (ρ : Dev nD → PrngReg) (c : Dev nD)

/-! ## The arguments at the boundaries -/

theorem at1_arg0 : W1 m ρ c (Proc.devRef .tc main_arg0) = m ((c : Thread nD τ).loc main_arg0) := by
  show StableHlo.after hostOps0 (W0 m ρ c) (Proc.devRef .tc main_arg0) = _
  after_results_simp <;> rfl
theorem at1_arg1 : W1 m ρ c (Proc.devRef .tc main_arg1) = m ((c : Thread nD τ).loc main_arg1) := by
  show StableHlo.after hostOps0 (W0 m ρ c) (Proc.devRef .tc main_arg1) = _
  after_results_simp <;> rfl
theorem at1_arg2 : W1 m ρ c (Proc.devRef .tc main_arg2) = m ((c : Thread nD τ).loc main_arg2) := by
  show StableHlo.after hostOps0 (W0 m ρ c) (Proc.devRef .tc main_arg2) = _
  after_results_simp <;> rfl
theorem at1_arg3 : W1 m ρ c (Proc.devRef .tc main_arg3) = m ((c : Thread nD τ).loc main_arg3) := by
  show StableHlo.after hostOps0 (W0 m ρ c) (Proc.devRef .tc main_arg3) = _
  after_results_simp <;> rfl
theorem at1_arg4 : W1 m ρ c (Proc.devRef .tc main_arg4) = m ((c : Thread nD τ).loc main_arg4) := by
  show StableHlo.after hostOps0 (W0 m ρ c) (Proc.devRef .tc main_arg4) = _
  after_results_simp <;> rfl
theorem at1_arg5 : W1 m ρ c (Proc.devRef .tc main_arg5) = m ((c : Thread nD τ).loc main_arg5) := by
  show StableHlo.after hostOps0 (W0 m ρ c) (Proc.devRef .tc main_arg5) = _
  after_results_simp <;> rfl
theorem at1_arg6 : W1 m ρ c (Proc.devRef .tc main_arg6) = m ((c : Thread nD τ).loc main_arg6) := by
  show StableHlo.after hostOps0 (W0 m ρ c) (Proc.devRef .tc main_arg6) = _
  after_results_simp <;> rfl
theorem at1_arg8 : W1 m ρ c (Proc.devRef .tc main_arg8) = m ((c : Thread nD τ).loc main_arg8) := by
  show StableHlo.after hostOps0 (W0 m ρ c) (Proc.devRef .tc main_arg8) = _
  after_results_simp <;> rfl
theorem at1_arg9 : W1 m ρ c (Proc.devRef .tc main_arg9) = m ((c : Thread nD τ).loc main_arg9) := by
  show StableHlo.after hostOps0 (W0 m ρ c) (Proc.devRef .tc main_arg9) = _
  after_results_simp <;> rfl
theorem at1_arg10 : W1 m ρ c (Proc.devRef .tc main_arg10) = m ((c : Thread nD τ).loc main_arg10) := by
  show StableHlo.after hostOps0 (W0 m ρ c) (Proc.devRef .tc main_arg10) = _
  after_results_simp <;> rfl
theorem at1_arg11 : W1 m ρ c (Proc.devRef .tc main_arg11) = m ((c : Thread nD τ).loc main_arg11) := by
  show StableHlo.after hostOps0 (W0 m ρ c) (Proc.devRef .tc main_arg11) = _
  after_results_simp <;> rfl
theorem at1_arg12 : W1 m ρ c (Proc.devRef .tc main_arg12) = m ((c : Thread nD τ).loc main_arg12) := by
  show StableHlo.after hostOps0 (W0 m ρ c) (Proc.devRef .tc main_arg12) = _
  after_results_simp <;> rfl
theorem at1_arg13 : W1 m ρ c (Proc.devRef .tc main_arg13) = m ((c : Thread nD τ).loc main_arg13) := by
  show StableHlo.after hostOps0 (W0 m ρ c) (Proc.devRef .tc main_arg13) = _
  after_results_simp <;> rfl
theorem at1_arg14 : W1 m ρ c (Proc.devRef .tc main_arg14) = m ((c : Thread nD τ).loc main_arg14) := by
  show StableHlo.after hostOps0 (W0 m ρ c) (Proc.devRef .tc main_arg14) = _
  after_results_simp <;> rfl

theorem at2_arg1 : W2 m ρ c (Proc.devRef .tc main_arg1) = m ((c : Thread nD τ).loc main_arg1) :=
  (W2_of_ne m ρ c main_arg1 (by decide)).trans (at1_arg1 m ρ c)
theorem at2_arg2 : W2 m ρ c (Proc.devRef .tc main_arg2) = m ((c : Thread nD τ).loc main_arg2) :=
  (W2_of_ne m ρ c main_arg2 (by decide)).trans (at1_arg2 m ρ c)
theorem at2_arg3 : W2 m ρ c (Proc.devRef .tc main_arg3) = m ((c : Thread nD τ).loc main_arg3) :=
  (W2_of_ne m ρ c main_arg3 (by decide)).trans (at1_arg3 m ρ c)
theorem at2_arg4 : W2 m ρ c (Proc.devRef .tc main_arg4) = m ((c : Thread nD τ).loc main_arg4) :=
  (W2_of_ne m ρ c main_arg4 (by decide)).trans (at1_arg4 m ρ c)
theorem at2_arg6 : W2 m ρ c (Proc.devRef .tc main_arg6) = m ((c : Thread nD τ).loc main_arg6) :=
  (W2_of_ne m ρ c main_arg6 (by decide)).trans (at1_arg6 m ρ c)
theorem at2_arg8 : W2 m ρ c (Proc.devRef .tc main_arg8) = m ((c : Thread nD τ).loc main_arg8) :=
  (W2_of_ne m ρ c main_arg8 (by decide)).trans (at1_arg8 m ρ c)
theorem at2_arg10 : W2 m ρ c (Proc.devRef .tc main_arg10) = m ((c : Thread nD τ).loc main_arg10) :=
  (W2_of_ne m ρ c main_arg10 (by decide)).trans (at1_arg10 m ρ c)
theorem at2_arg11 : W2 m ρ c (Proc.devRef .tc main_arg11) = m ((c : Thread nD τ).loc main_arg11) :=
  (W2_of_ne m ρ c main_arg11 (by decide)).trans (at1_arg11 m ρ c)
theorem at2_arg12 : W2 m ρ c (Proc.devRef .tc main_arg12) = m ((c : Thread nD τ).loc main_arg12) :=
  (W2_of_ne m ρ c main_arg12 (by decide)).trans (at1_arg12 m ρ c)
theorem at2_arg13 : W2 m ρ c (Proc.devRef .tc main_arg13) = m ((c : Thread nD τ).loc main_arg13) :=
  (W2_of_ne m ρ c main_arg13 (by decide)).trans (at1_arg13 m ρ c)
theorem at2_arg14 : W2 m ρ c (Proc.devRef .tc main_arg14) = m ((c : Thread nD τ).loc main_arg14) :=
  (W2_of_ne m ρ c main_arg14 (by decide)).trans (at1_arg14 m ρ c)
theorem at2_arg0 : W2 m ρ c (Proc.devRef .tc main_arg0) = m ((c : Thread nD τ).loc main_arg0) :=
  (W2_arr m ρ c 0).trans ((((dat0 (V1 m ρ) c).arrAt_in 0 rfl _).trans (A_eq0 (V1 m ρ) c 0)).trans (at1_arg0 m ρ c))
theorem at2_arg9 : W2 m ρ c (Proc.devRef .tc main_arg9) = m ((c : Thread nD τ).loc main_arg9) :=
  (W2_arr m ρ c 3).trans ((((dat0 (V1 m ρ) c).arrAt_in 3 rfl _).trans (A_eq0 (V1 m ρ) c 3)).trans (at1_arg9 m ρ c))

theorem at3_arg0 : W3 m ρ c (Proc.devRef .tc main_arg0) = m ((c : Thread nD τ).loc main_arg0) := by
  refine Eq.trans ?_ (at2_arg0 m ρ c)
  show StableHlo.after hostOps1 (W2 m ρ c) (Proc.devRef .tc main_arg0) = _
  after_results_simp <;> rfl
theorem at3_arg1 : W3 m ρ c (Proc.devRef .tc main_arg1) = m ((c : Thread nD τ).loc main_arg1) := by
  refine Eq.trans ?_ (at2_arg1 m ρ c)
  show StableHlo.after hostOps1 (W2 m ρ c) (Proc.devRef .tc main_arg1) = _
  after_results_simp <;> rfl
theorem at3_arg2 : W3 m ρ c (Proc.devRef .tc main_arg2) = m ((c : Thread nD τ).loc main_arg2) := by
  refine Eq.trans ?_ (at2_arg2 m ρ c)
  show StableHlo.after hostOps1 (W2 m ρ c) (Proc.devRef .tc main_arg2) = _
  after_results_simp <;> rfl
theorem at3_arg3 : W3 m ρ c (Proc.devRef .tc main_arg3) = m ((c : Thread nD τ).loc main_arg3) := by
  refine Eq.trans ?_ (at2_arg3 m ρ c)
  show StableHlo.after hostOps1 (W2 m ρ c) (Proc.devRef .tc main_arg3) = _
  after_results_simp <;> rfl
theorem at3_arg4 : W3 m ρ c (Proc.devRef .tc main_arg4) = m ((c : Thread nD τ).loc main_arg4) := by
  refine Eq.trans ?_ (at2_arg4 m ρ c)
  show StableHlo.after hostOps1 (W2 m ρ c) (Proc.devRef .tc main_arg4) = _
  after_results_simp <;> rfl
theorem at3_arg6 : W3 m ρ c (Proc.devRef .tc main_arg6) = m ((c : Thread nD τ).loc main_arg6) := by
  refine Eq.trans ?_ (at2_arg6 m ρ c)
  show StableHlo.after hostOps1 (W2 m ρ c) (Proc.devRef .tc main_arg6) = _
  after_results_simp <;> rfl
theorem at3_arg9 : W3 m ρ c (Proc.devRef .tc main_arg9) = m ((c : Thread nD τ).loc main_arg9) := by
  refine Eq.trans ?_ (at2_arg9 m ρ c)
  show StableHlo.after hostOps1 (W2 m ρ c) (Proc.devRef .tc main_arg9) = _
  after_results_simp <;> rfl
theorem at3_arg10 : W3 m ρ c (Proc.devRef .tc main_arg10) = m ((c : Thread nD τ).loc main_arg10) := by
  refine Eq.trans ?_ (at2_arg10 m ρ c)
  show StableHlo.after hostOps1 (W2 m ρ c) (Proc.devRef .tc main_arg10) = _
  after_results_simp <;> rfl
theorem at3_arg12 : W3 m ρ c (Proc.devRef .tc main_arg12) = m ((c : Thread nD τ).loc main_arg12) := by
  refine Eq.trans ?_ (at2_arg12 m ρ c)
  show StableHlo.after hostOps1 (W2 m ρ c) (Proc.devRef .tc main_arg12) = _
  after_results_simp <;> rfl
theorem at3_arg13 : W3 m ρ c (Proc.devRef .tc main_arg13) = m ((c : Thread nD τ).loc main_arg13) := by
  refine Eq.trans ?_ (at2_arg13 m ρ c)
  show StableHlo.after hostOps1 (W2 m ρ c) (Proc.devRef .tc main_arg13) = _
  after_results_simp <;> rfl
theorem at3_arg14 : W3 m ρ c (Proc.devRef .tc main_arg14) = m ((c : Thread nD τ).loc main_arg14) := by
  refine Eq.trans ?_ (at2_arg14 m ρ c)
  show StableHlo.after hostOps1 (W2 m ρ c) (Proc.devRef .tc main_arg14) = _
  after_results_simp <;> rfl

theorem at4_arg0 : W4 m ρ c (Proc.devRef .tc main_arg0) = m ((c : Thread nD τ).loc main_arg0) :=
  (W4_of_ne m ρ c main_arg0 (by decide)).trans (at3_arg0 m ρ c)
theorem at4_arg2 : W4 m ρ c (Proc.devRef .tc main_arg2) = m ((c : Thread nD τ).loc main_arg2) :=
  (W4_of_ne m ρ c main_arg2 (by decide)).trans (at3_arg2 m ρ c)
theorem at4_arg3 : W4 m ρ c (Proc.devRef .tc main_arg3) = m ((c : Thread nD τ).loc main_arg3) :=
  (W4_of_ne m ρ c main_arg3 (by decide)).trans (at3_arg3 m ρ c)
theorem at4_arg4 : W4 m ρ c (Proc.devRef .tc main_arg4) = m ((c : Thread nD τ).loc main_arg4) :=
  (W4_of_ne m ρ c main_arg4 (by decide)).trans (at3_arg4 m ρ c)
theorem at4_arg9 : W4 m ρ c (Proc.devRef .tc main_arg9) = m ((c : Thread nD τ).loc main_arg9) :=
  (W4_of_ne m ρ c main_arg9 (by decide)).trans (at3_arg9 m ρ c)
theorem at4_arg12 : W4 m ρ c (Proc.devRef .tc main_arg12) = m ((c : Thread nD τ).loc main_arg12) :=
  (W4_of_ne m ρ c main_arg12 (by decide)).trans (at3_arg12 m ρ c)
theorem at4_arg13 : W4 m ρ c (Proc.devRef .tc main_arg13) = m ((c : Thread nD τ).loc main_arg13) :=
  (W4_of_ne m ρ c main_arg13 (by decide)).trans (at3_arg13 m ρ c)

/-! ## The bias rows -/

/-- A bias vector reshaped to [1, 512] is the row the network's layers take. -/
theorem reshaped_row (b : FVec Ideal S512 .f32) : shapeCast S1x512 b shapeCasts_S512_S1x512 = biasRow b :=
  (Cert.SageLayers.row_of_vector (N := 512) b ![1] rfl _ shapeCasts_S512_S1x512).symm

theorem at1_row : W1 m ρ c (Proc.devRef .tc main_v0) = biasRow (m ((c : Thread nD τ).loc main_arg7)) := by
  refine Eq.trans ?_ (reshaped_row (m ((c : Thread nD τ).loc main_arg7)))
  show StableHlo.after hostOps0 (W0 m ρ c) (Proc.devRef .tc main_v0) = _
  after_results_simp
  rfl

theorem at3_row : W3 m ρ c (Proc.devRef .tc main_v21) = biasRow (m ((c : Thread nD τ).loc main_arg8)) := by
  refine Eq.trans ?_ (reshaped_row (m ((c : Thread nD τ).loc main_arg8)))
  refine Eq.trans ?_ (congrArg (fun b => shapeCast S1x512 b shapeCasts_S512_S1x512) (at2_arg8 m ρ c))
  show StableHlo.after hostOps1 (W2 m ρ c) (Proc.devRef .tc main_v21) = _
  after_results_simp
  rfl

/-! ## The regions' outputs and the stretches between them -/

/-- After the first region: the vertices' messages. -/
theorem at2_messages : W2 m ρ c (Proc.devRef .tc main_v1)
    = message (R := 50000) (K := 512) (N := 512) (m ((c : Thread nD τ).loc main_arg0)) (m ((c : Thread nD τ).loc main_arg5)) (biasRow (m ((c : Thread nD τ).loc main_arg7))) (m ((c : Thread nD τ).loc main_arg9)) := by
  refine (W2_arr m ρ c 4).trans ((stage1_array (V1 m ρ) c).trans ?_)
  show message (R := 50000) (K := 512) (N := 512) (W1 m ρ c (Proc.devRef .tc main_arg0)) (W1 m ρ c (Proc.devRef .tc main_arg5))
      (W1 m ρ c (Proc.devRef .tc main_v0)) (W1 m ρ c (Proc.devRef .tc main_arg9)) = _
  rw [at1_arg0, at1_arg5, at1_row, at1_arg9]

/-- After the second stretch: what the incidences add into the edges. -/
theorem at3_gathered : W3 m ρ c (Proc.devRef .tc main_v20)
    = edgeAgg (message (R := 50000) (K := 512) (N := 512) (m ((c : Thread nD τ).loc main_arg0)) (m ((c : Thread nD τ).loc main_arg5)) (biasRow (m ((c : Thread nD τ).loc main_arg7))) (m ((c : Thread nD τ).loc main_arg9)))
        (m ((c : Thread nD τ).loc main_arg2)) (m ((c : Thread nD τ).loc main_arg3)) (m ((c : Thread nD τ).loc main_arg4)) (m ((c : Thread nD τ).loc main_arg11)) := by
  have fold : W3 m ρ c (Proc.devRef .tc main_v20)
      = edgeAgg (W2 m ρ c (Proc.devRef .tc main_v1)) (W2 m ρ c (Proc.devRef .tc main_arg2))
          (W2 m ρ c (Proc.devRef .tc main_arg3)) (W2 m ρ c (Proc.devRef .tc main_arg4)) (W2 m ρ c (Proc.devRef .tc main_arg11)) := by
    show StableHlo.after hostOps1 (W2 m ρ c) (Proc.devRef .tc main_v20) = _
    after_results_simp
    rfl
  rw [fold, at2_messages, at2_arg2, at2_arg3, at2_arg4, at2_arg11]

/-- After the second region: the edge result. -/
theorem at4_edges : W4 m ρ c (Proc.devRef .tc main_v22_0)
    = netEdge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg9)) (m ((c : Thread nD τ).loc main_arg11)) (m ((c : Thread nD τ).loc main_arg14)) := by
  refine (W4_arr m ρ c 6).trans ((update_array (V3 m ρ) c).trans ?_)
  show edgeUpdate (R := 10000) (N := 512) (W3 m ρ c (Proc.devRef .tc main_arg1)) (W3 m ρ c (Proc.devRef .tc main_v20))
      (W3 m ρ c (Proc.devRef .tc main_arg14)) = _
  rw [at3_arg1, at3_gathered, at3_arg14]
  rfl

/-- After the second region: the edges' messages. -/
theorem at4_messages : W4 m ρ c (Proc.devRef .tc main_v22_1)
    = message (R := 10000) (K := 512) (N := 512)
        (netEdge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg9)) (m ((c : Thread nD τ).loc main_arg11)) (m ((c : Thread nD τ).loc main_arg14)))
        (m ((c : Thread nD τ).loc main_arg6)) (biasRow (m ((c : Thread nD τ).loc main_arg8))) (m ((c : Thread nD τ).loc main_arg10)) := by
  refine (W4_arr m ρ c 7).trans ((message_array (V3 m ρ) c).trans ?_)
  show message (R := 10000) (K := 512) (N := 512)
      (edgeUpdate (R := 10000) (N := 512) (W3 m ρ c (Proc.devRef .tc main_arg1)) (W3 m ρ c (Proc.devRef .tc main_v20))
        (W3 m ρ c (Proc.devRef .tc main_arg14)))
      (W3 m ρ c (Proc.devRef .tc main_arg6)) (W3 m ρ c (Proc.devRef .tc main_v21)) (W3 m ρ c (Proc.devRef .tc main_arg10)) = _
  rw [at3_arg1, at3_gathered, at3_arg14, at3_arg6, at3_row, at3_arg10]
  rfl

/-! ## The two results -/

/-- The edge result at the last boundary is the network's. -/
theorem edge_value : W5 m ρ c (Proc.devRef .tc main_v22_0)
    = netEdge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg9)) (m ((c : Thread nD τ).loc main_arg11)) (m ((c : Thread nD τ).loc main_arg14)) := by
  refine Eq.trans ?_ (at4_edges m ρ c)
  show StableHlo.after hostOps2 (W4 m ρ c) (Proc.devRef .tc main_v22_0) = _
  after_results_simp <;> rfl

/-- The vertex result at the last boundary is the network's. -/
theorem vertex_value : W5 m ρ c (Proc.devRef .tc main_v46)
    = netVertex (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have fold : W5 m ρ c (Proc.devRef .tc main_v46)
      = vertexOut (W4 m ρ c (Proc.devRef .tc main_v22_1)) (W4 m ρ c (Proc.devRef .tc main_arg0))
          (W4 m ρ c (Proc.devRef .tc main_arg2)) (W4 m ρ c (Proc.devRef .tc main_arg3)) (W4 m ρ c (Proc.devRef .tc main_arg4))
          (W4 m ρ c (Proc.devRef .tc main_arg9)) (W4 m ρ c (Proc.devRef .tc main_arg12)) (W4 m ρ c (Proc.devRef .tc main_arg13)) := by
    show StableHlo.after hostOps2 (W4 m ρ c) (Proc.devRef .tc main_v46) = _
    after_results_simp
    rfl
  rw [fold, at4_messages, at4_arg0, at4_arg2, at4_arg3, at4_arg4, at4_arg9, at4_arg12, at4_arg13]
  rfl

end Cert.KernelIdeal.Whole

end
-- ==== Proof.lean ====
/-
  The certificate of one round of message passing on an incidence structure (vertices, edges, incidences): a program
  with two pipelined kernels against a plain host program.

  Both programs compute, on the extended reals, the same two arrays of the fifteen arguments (Proof/Network.lean):
  the edge result  (e + Σ over the edge's incidences of (vertex message row · incidence weight)) / edge normalizer,
  and the vertex result  (v · vw + Σ over the vertex's incidences of (edge message row · incidence weight)) / vertex
  normalizer, a message being a rectified dense layer scaled by the row's weight.  The gathers and scatter-adds over
  the incidences are the same host operations in both programs; the programs differ in who computes the messages and
  the edge update.  In the kernel program two pipelined regions do, tile by tile (Proof/Stage1Array.lean,
  Proof/Stage2Arrays.lean: each tile is the block of one whole matrix, and the blocks tile the array); in the reference
  the host does, with a dot_general and broadcasts (Proof/LibMessageLayer.lean has both spellings of each).  No step
  regroups a sum or moves a factor across one, so the equality holds at every extended real and the finiteness of
  the inputs is never used.

  The kernel program's run is read at its last boundary (Proof/KernelRun.lean) and the boundary's contents at the two
  results are the network's (Proof/KernelValue.lean); the reference's run is the generated one, its composed terms
  folded into the network by `reference_vertex` and `reference_edge`.  The two kernel frames are the generated ones; the
  reference's frame is its run with the results dropped; the idealization rewrote nothing, so it preserves trivially.
-/
import proofs.«118630_j89988154785842_2_alg».proof.Defs
import proofs.«118630_j89988154785842_2_alg».proof.Proof.Gen.Kernel
import proofs.«118630_j89988154785842_2_alg».proof.Proof.Gen.Kernel.Skeleton
import proofs.«118630_j89988154785842_2_alg».proof.Proof.Gen.Kernel.Launch
import proofs.«118630_j89988154785842_2_alg».proof.Proof.Gen.Kernel.Points
import proofs.«118630_j89988154785842_2_alg».proof.Proof.Gen.Kernel.Frame
import proofs.«118630_j89988154785842_2_alg».proof.Proof.Gen.KernelIdeal
import proofs.«118630_j89988154785842_2_alg».proof.Proof.Gen.KernelIdeal.Skeleton
import proofs.«118630_j89988154785842_2_alg».proof.Proof.Gen.KernelIdeal.Launch
import proofs.«118630_j89988154785842_2_alg».proof.Proof.Gen.KernelIdeal.Points
import proofs.«118630_j89988154785842_2_alg».proof.Proof.Gen.KernelIdeal.Frame
import proofs.«118630_j89988154785842_2_alg».proof.Proof.Gen.ReferenceIdeal
import proofs.«118630_j89988154785842_2_alg».proof.Proof.Gen.ReferenceIdeal.Run
import proofs.«118630_j89988154785842_2_alg».proof.Proof.Gen.Pre_finite_inputs
import proofs.«118630_j89988154785842_2_alg».proof.Proof.Network
import proofs.«118630_j89988154785842_2_alg».proof.Proof.KernelRun
import proofs.«118630_j89988154785842_2_alg».proof.Proof.KernelValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized one. -/
theorem frame_ideal : Cert.frame_KernelIdeal := fun m ρ _ => Cert.KernelIdeal.Gen.frame m ρ

/-- The reference runs and keeps its arguments: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- On the extended reals the two programs, run from memories that agree on the arguments, end with the same vertex
    result and the same edge result: the network's, of the arguments. -/
theorem algebraic : Cert.algebraic_KernelIdeal_ReferenceIdeal := by
  intro m ρ m' ρ' _ hagree
  refine ⟨fun c => Cert.Incidence.netVertex
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14)),
      fun c => Cert.Incidence.netEdge
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg14)), ?_, ?_⟩
  · exact (θ_run Cert.KernelIdeal.defs _ _).mono
      (fun _ h c => ⟨(h c).1.trans (Cert.KernelIdeal.Whole.vertex_value m ρ c),
        (h c).2.1.trans (Cert.KernelIdeal.Whole.edge_value m ρ c), (h c).2.2⟩)
      (Cert.KernelIdeal.Whole.run_results m ρ)
  · refine (θ_run Cert.ReferenceIdeal.defs _ _).mono (fun _ h c => ?_) (Cert.ReferenceIdeal.Value.run (F := Ideal) m' ρ')
    obtain ⟨h0, h1, h2, h3, h4, h5, h6, h7, h8, h9, h10, h11, h12, h13, h14⟩ := hagree c
    refine ⟨(h c).1.trans ?_, (h c).2.1.trans ?_, (h c).2.2⟩
    · refine (Cert.Incidence.reference_vertex
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
        (m' ((c.tc : Thread Cert.ReferenceIdeal.nD Cert.ReferenceIdeal.τ).loc Cert.ReferenceIdeal.main_arg14))).trans ?_
      rw [h0, h1, h2, h3, h4, h5, h6, h7, h8, h9, h10, h11, h12, h13, h14]
    · refine (Cert.Incidence.reference_edge
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg14))).trans ?_
      rw [h0, h1, h2, h3, h4, h5, h7, h9, h11, h14]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
